-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v125)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v125) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v195) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S3x128x128 : Shape := ⟨3, ![3, 128, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S128x1 .f32) (main_arg16 : FVec F S1 .f32) (main_v63 : IVec S_ 1) (main_v67 : IVec S_ 1) : IVec S_ 1 :=
  let main_v68 : IVec S_ 1 := andi main_v63 main_v67
  let main_v69 : FVec F S128x1 .f32 := Host.absf main_arg15
  let main_cst_26 : FVec F S_ .f32 := constant S_ .f32 0x7F800000#32
  let main_v70 : FVec F S128x1 .f32 := broadcastInDim S128x1 ![] bcast_S_S128x1 main_cst_26
  let main_v71 : IVec S128x1 1 := cmpf .olt main_v69 main_v70
  let main_c_27 : IVec S_ 1 := constantI S_ 1 1#1
  let main_v72 : IVec S_ 1 := (fun x v => Host.reduce IntOp.andi x v reducesTo_S128x1_S_d0_1 h_S_) main_v71 main_c_27
  let main_v73 : IVec S_ 1 := andi main_v68 main_v72
  let main_v74 : FVec F S1 .f32 := Host.absf main_arg16
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg12 : FVec F S128 .f32) (main_arg13 : FVec F S128 .f32) (main_arg14 : FVec F S128 .f32) (main_arg15 : FVec F S128x1 .f32) (main_arg16 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_v63 main_v67

def fn_part2 {F : FTy → Type} [FloatOps F] (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S128x1 .f32) (main_arg16 : FVec F S1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_v48 main_v49 main_v50

def fn_part1 {F : FTy → Type} [FloatOps F] (main_arg5 : FVec F S3x128x128 .f32) (main_arg6 : FVec F S128 .f32) (main_arg7 : FVec F S3x128x128 .f32) (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S128x1 .f32) (main_arg16 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S3x128x128 .f32 := Host.absf main_arg5
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S3x128x128 .f32 := Host.absf main_arg7
  let main_cst_10 : FVec F S_ .f32 := constant S_ .f32 0x7F800000#32
  let main_v30 : FVec F S3x128x128 .f32 := broadcastInDim S3x128x128 ![] bcast_S_S3x128x128 main_cst_10
  let main_v31 : IVec S3x128x128 1 := cmpf .olt main_v29 main_v30
  let main_c_11 : IVec S_ 1 := constantI S_ 1 1#1
  let main_v32 : IVec S_ 1 := (fun x v => Host.reduce IntOp.andi x v reducesTo_S3x128x128_S_d0_1_2 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S50000x128 .f32) (main_arg1 : IVec S2x800000 32) (main_arg2 : FVec F S800000 .f32) (main_arg3 : FVec F S3x128x128 .f32) (main_arg4 : FVec F S128 .f32) (main_arg5 : FVec F S3x128x128 .f32) (main_arg6 : FVec F S128 .f32) (main_arg7 : FVec F S3x128x128 .f32) (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S128x1 .f32) (main_arg16 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S3x128x128 .f32 := Host.absf main_arg3
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S3x128x128 : Shape := ⟨3, ![3, 128, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S2000x128 : Shape := ⟨2, ![2000, 128]⟩
abbrev S1x128x128 : Shape := ⟨3, ![1, 128, 128]⟩
abbrev S1x128 : Shape := ⟨2, ![1, 128]⟩
abbrev S50000x1 : Shape := ⟨2, ![50000, 1]⟩
abbrev S2000x1 : Shape := ⟨2, ![2000, 1]⟩
abbrev S2000 : Shape := ⟨1, ![2000]⟩
abbrev S1x1 : Shape := ⟨2, ![1, 1]⟩

abbrev nBuf : Space → Nat
  | .hbm => 177
  | .vmem => 42
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S3x128x128, .f32⟩
  | 4 => ⟨S128, .f32⟩
  | 5 => ⟨S3x128x128, .f32⟩
  | 6 => ⟨S128, .f32⟩
  | 7 => ⟨S3x128x128, .f32⟩
  | 8 => ⟨S128, .f32⟩
  | 9 => ⟨S128x128, .f32⟩
  | 10 => ⟨S128, .f32⟩
  | 11 => ⟨S128, .f32⟩
  | 12 => ⟨S128, .f32⟩
  | 13 => ⟨S128, .f32⟩
  | 14 => ⟨S128, .f32⟩
  | 15 => ⟨S128x1, .f32⟩
  | 16 => ⟨S1, .f32⟩
  | 17 => ⟨S1x800000, .i32⟩
  | 18 => ⟨S800000, .i32⟩
  | 19 => ⟨S1x800000, .i32⟩
  | 20 => ⟨S800000, .i32⟩
  | 21 => ⟨S1x800000, .i32⟩
  | 22 => ⟨S800000, .i32⟩
  | 23 => ⟨S1x800000, .i32⟩
  | 24 => ⟨S800000, .i32⟩
  | 25 => ⟨S_, .f32⟩
  | 26 => ⟨S50000, .f32⟩
  | 27 => ⟨S800000x1, .i32⟩
  | 28 => ⟨S50000, .f32⟩
  | 29 => ⟨S_, .f32⟩
  | 30 => ⟨S50000, .f32⟩
  | 31 => ⟨S50000, .i1⟩
  | 32 => ⟨S_, .f32⟩
  | 33 => ⟨S50000, .f32⟩
  | 34 => ⟨S50000, .i1⟩
  | 35 => ⟨S_, .f32⟩
  | 36 => ⟨S_, .f32⟩
  | 37 => ⟨S50000, .f32⟩
  | 38 => ⟨S50000, .f32⟩
  | 39 => ⟨S50000, .f32⟩
  | 40 => ⟨S_, .f32⟩
  | 41 => ⟨S_, .f32⟩
  | 42 => ⟨S50000, .f32⟩
  | 43 => ⟨S50000, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000, .f32⟩
  | 53 => ⟨S800000, .f32⟩
  | 54 => ⟨S800000, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000, .f32⟩
  | 64 => ⟨S800000, .f32⟩
  | 65 => ⟨S800000x1, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S800000x128, .f32⟩
  | 75 => ⟨S800000x128, .f32⟩
  | 76 => ⟨S800000x128, .f32⟩
  | 77 => ⟨S_, .f32⟩
  | 78 => ⟨S50000x128, .f32⟩
  | 79 => ⟨S800000x1, .i32⟩
  | 80 => ⟨S50000x128, .f32⟩
  | 81 => ⟨S800000x1, .f32⟩
  | 82 => ⟨S_, .i32⟩
  | 83 => ⟨S800000, .i32⟩
  | 84 => ⟨S800000, .i1⟩
  | 85 => ⟨S_, .i32⟩
  | 86 => ⟨S800000, .i32⟩
  | 87 => ⟨S800000, .i32⟩
  | 88 => ⟨S800000, .i32⟩
  | 89 => ⟨S800000x1, .i32⟩
  | 90 => ⟨S800000x128, .f32⟩
  | 91 => ⟨S800000x128, .f32⟩
  | 92 => ⟨S800000x128, .f32⟩
  | 93 => ⟨S_, .f32⟩
  | 94 => ⟨S50000x128, .f32⟩
  | 95 => ⟨S800000x1, .i32⟩
  | 96 => ⟨S50000x128, .f32⟩
  | 97 => ⟨S_, .f32⟩
  | 98 => ⟨S50000x128, .f32⟩
  | 99 => ⟨S50000x128, .f32⟩
  | 100 => ⟨S50000x128, .f32⟩
  | 101 => ⟨S50000x128, .f32⟩
  | 102 => ⟨S800000x1, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000x128, .f32⟩
  | 112 => ⟨S800000x128, .f32⟩
  | 113 => ⟨S800000x128, .f32⟩
  | 114 => ⟨S_, .f32⟩
  | 115 => ⟨S50000x128, .f32⟩
  | 116 => ⟨S800000x1, .i32⟩
  | 117 => ⟨S50000x128, .f32⟩
  | 118 => ⟨S800000x1, .f32⟩
  | 119 => ⟨S_, .i32⟩
  | 120 => ⟨S800000, .i32⟩
  | 121 => ⟨S800000, .i1⟩
  | 122 => ⟨S_, .i32⟩
  | 123 => ⟨S800000, .i32⟩
  | 124 => ⟨S800000, .i32⟩
  | 125 => ⟨S800000, .i32⟩
  | 126 => ⟨S800000x1, .i32⟩
  | 127 => ⟨S800000x128, .f32⟩
  | _ => ⟨S50000x128, .f32⟩

abbrev hbmTy0_1 (i : Nat) : BufTy := match i % 128 with
  | 0 => ⟨S800000x128, .f32⟩
  | 1 => ⟨S800000x128, .f32⟩
  | 2 => ⟨S_, .f32⟩
  | 3 => ⟨S50000x128, .f32⟩
  | 4 => ⟨S800000x1, .i32⟩
  | 5 => ⟨S50000x128, .f32⟩
  | 6 => ⟨S_, .f32⟩
  | 7 => ⟨S50000x128, .f32⟩
  | 8 => ⟨S50000x128, .f32⟩
  | 9 => ⟨S50000x128, .f32⟩
  | 10 => ⟨S50000x128, .f32⟩
  | 11 => ⟨S800000x1, .f32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000x128, .f32⟩
  | 21 => ⟨S800000x128, .f32⟩
  | 22 => ⟨S800000x128, .f32⟩
  | 23 => ⟨S_, .f32⟩
  | 24 => ⟨S50000x128, .f32⟩
  | 25 => ⟨S800000x1, .i32⟩
  | 26 => ⟨S50000x128, .f32⟩
  | 27 => ⟨S800000x1, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x128, .f32⟩
  | 37 => ⟨S800000x128, .f32⟩
  | 38 => ⟨S800000x128, .f32⟩
  | 39 => ⟨S_, .f32⟩
  | 40 => ⟨S50000x128, .f32⟩
  | 41 => ⟨S800000x1, .i32⟩
  | 42 => ⟨S50000x128, .f32⟩
  | 43 => ⟨S_, .f32⟩
  | 44 => ⟨S50000x128, .f32⟩
  | 45 => ⟨S50000x128, .f32⟩
  | 46 => ⟨S50000x128, .f32⟩
  | 47 => ⟨S50000x128, .f32⟩
  | 48 => ⟨S50000x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S3x128x128, .f32⟩
  | .local _ .vmem, ⟨7, _⟩ => ⟨S128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S3x128x128, .f32⟩
  | .local _ .vmem, ⟨17, _⟩ => ⟨S128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S3x128x128, .f32⟩
  | .local _ .vmem, ⟨27, _⟩ => ⟨S128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S128x128, .f32⟩
  | .local _ .vmem, ⟨33, _⟩ => ⟨S128, .f32⟩
  | .local _ .vmem, ⟨34, _⟩ => ⟨S128, .f32⟩
  | .local _ .vmem, ⟨35, _⟩ => ⟨S128, .f32⟩
  | .local _ .vmem, ⟨36, _⟩ => ⟨S128, .f32⟩
  | .local _ .vmem, ⟨37, _⟩ => ⟨S128, .f32⟩
  | .local _ .vmem, ⟨38, _⟩ => ⟨S128x1, .f32⟩
  | .local _ .vmem, ⟨39, _⟩ => ⟨S1, .f32⟩
  | .local _ .vmem, ⟨40, _⟩ => ⟨S2000x1, .f32⟩
  | .local _ .vmem, ⟨41, _⟩ => ⟨S2000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_0 : Ref sig .tc := ⟨.hbm, 29, rfl⟩
abbrev main_v11 : Ref sig .tc := ⟨.hbm, 30, rfl⟩
abbrev main_v12 : Ref sig .tc := ⟨.hbm, 31, rfl⟩
abbrev main_cst_1 : Ref sig .tc := ⟨.hbm, 32, rfl⟩
abbrev main_v13 : Ref sig .tc := ⟨.hbm, 33, rfl⟩
abbrev main_v14 : Ref sig .tc := ⟨.hbm, 34, rfl⟩
abbrev main_cst_2 : Ref sig .tc := ⟨.hbm, 35, rfl⟩
abbrev main_call0_v0 : Ref sig .tc := ⟨.hbm, 36, rfl⟩
abbrev main_call0_v1 : Ref sig .tc := ⟨.hbm, 37, rfl⟩
abbrev main_v15 : Ref sig .tc := ⟨.hbm, 38, rfl⟩
abbrev main_v16 : Ref sig .tc := ⟨.hbm, 39, rfl⟩
abbrev main_cst_3 : Ref sig .tc := ⟨.hbm, 40, rfl⟩
abbrev main_call1_v0 : Ref sig .tc := ⟨.hbm, 41, rfl⟩
abbrev main_call1_v1 : Ref sig .tc := ⟨.hbm, 42, rfl⟩
abbrev main_v17 : Ref sig .tc := ⟨.hbm, 43, rfl⟩
abbrev main_c : Ref sig .tc := ⟨.hbm, 44, rfl⟩
abbrev main_v18 : Ref sig .tc := ⟨.hbm, 45, rfl⟩
abbrev main_v19 : Ref sig .tc := ⟨.hbm, 46, rfl⟩
abbrev main_c_4 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_c_5 : Ref sig .tc := ⟨.hbm, 55, rfl⟩
abbrev main_v27 : Ref sig .tc := ⟨.hbm, 56, rfl⟩
abbrev main_v28 : Ref sig .tc := ⟨.hbm, 57, rfl⟩
abbrev main_c_6 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_c_7 : Ref sig .tc := ⟨.hbm, 66, rfl⟩
abbrev main_v36 : Ref sig .tc := ⟨.hbm, 67, rfl⟩
abbrev main_v37 : Ref sig .tc := ⟨.hbm, 68, rfl⟩
abbrev main_c_8 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_9 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_c_10 : Ref sig .tc := ⟨.hbm, 82, rfl⟩
abbrev main_v49 : Ref sig .tc := ⟨.hbm, 83, rfl⟩
abbrev main_v50 : Ref sig .tc := ⟨.hbm, 84, rfl⟩
abbrev main_c_11 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_12 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_cst_13 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_c_14 : Ref sig .tc := ⟨.hbm, 103, rfl⟩
abbrev main_v66 : Ref sig .tc := ⟨.hbm, 104, rfl⟩
abbrev main_v67 : Ref sig .tc := ⟨.hbm, 105, rfl⟩
abbrev main_c_15 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_cst_16 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_c_17 : Ref sig .tc := ⟨.hbm, 119, rfl⟩
abbrev main_v79 : Ref sig .tc := ⟨.hbm, 120, rfl⟩
abbrev main_v80 : Ref sig .tc := ⟨.hbm, 121, rfl⟩
abbrev main_c_18 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_cst_19 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_cst_20 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_c_21 : Ref sig .tc := ⟨.hbm, 140, rfl⟩
abbrev main_v96 : Ref sig .tc := ⟨.hbm, 141, rfl⟩
abbrev main_v97 : Ref sig .tc := ⟨.hbm, 142, rfl⟩
abbrev main_c_22 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_cst_23 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_c_24 : Ref sig .tc := ⟨.hbm, 156, rfl⟩
abbrev main_v109 : Ref sig .tc := ⟨.hbm, 157, rfl⟩
abbrev main_v110 : Ref sig .tc := ⟨.hbm, 158, rfl⟩
abbrev main_c_25 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_cst_26 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_cst_27 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg7_0 : Ref sig .tc := ⟨.vmem, 38, rfl⟩
abbrev cc3_stg8_0 : Ref sig .tc := ⟨.vmem, 39, rfl⟩
abbrev cc3_stg9_0 : Ref sig .tc := ⟨.vmem, 40, rfl⟩
abbrev cc3_stg9_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem6_0 : DmaSem sig := 37
abbrev cc3_sem7_0 : DmaSem sig := 38
abbrev cc3_sem8_0 : DmaSem sig := 39
abbrev cc3_sem9_0 : DmaSem sig := 40
abbrev cc3_sem9_1 : DmaSem sig := 41

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S3x128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S3x128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128x1 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S2000x1 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S3x128x128_S1x128x128_0_0_0 : ∀ a, (![0, 0, 0] : Fin 3 → Nat) a + S1x128x128.size a ≤ S3x128x128.size a
  h_S1x128x128 : 0 < S1x128x128.numel
  shapeCasts_S1x128x128_S128x128 : S1x128x128.ShapeCasts S128x128
  inb_S3x128x128_S1x128x128_1_0_0 : ∀ a, (![1, 0, 0] : Fin 3 → Nat) a + S1x128x128.size a ≤ S3x128x128.size a
  inb_S3x128x128_S1x128x128_2_0_0 : ∀ a, (![2, 0, 0] : Fin 3 → Nat) a + S1x128x128.size a ≤ S3x128x128.size a
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  inb_S128x1_S128x1_0_0 : ∀ a, (![0, 0] : Fin 2 → Nat) a + S128x1.size a ≤ S128x1.size a
  h_S128x1 : 0 < S128x1.numel
  shapeCasts_S128x1_S128 : S128x1.ShapeCasts S128
  reduces_S2000x128_S2000 : S2000x128.Reduces [1] S2000
  shapeCasts_S2000_S2000x1 : S2000.ShapeCasts S2000x1
  inb_S1_S1_0 : ∀ a, (![0] : Fin 1 → Nat) a + S1.size a ≤ S1.size a
  h_S1 : 0 < S1.numel
  shapeCasts_S1_S1x1 : S1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x128x128.size a ≤ S3x128x128.size a
  hwx0_3 : ∀ i : grid0.Coords, EltTy.bits .f32 = 32 ∨ (Rect.block (s := S3x128x128) S3x128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3x128x128.size a ≤ S3x128x128.size a
  hwx1_3 : ∀ i : grid1.Coords, EltTy.bits .f32 = 32 ∨ (Rect.block (s := S3x128x128) S3x128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S3x128x128.size a ≤ S3x128x128.size a
  hwx2_3 : ∀ i : grid2.Coords, EltTy.bits .f32 = 32 ∨ (Rect.block (s := S3x128x128) S3x128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128.size a ≤ S128.size a
  hwx3_5 : ∀ i : grid3.Coords, EltTy.bits .f32 = 32 ∨ (Rect.block (s := S128) S128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128.size a ≤ S128.size a
  hwx3_6 : ∀ i : grid3.Coords, EltTy.bits .f32 = 32 ∨ (Rect.block (s := S128) S128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128x1.size a ≤ S128x1.size a
  hwx3_7 : ∀ i : grid3.Coords, EltTy.bits .f32 = 32 ∨ (Rect.block (s := S128x1) S128x1.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1.size a ≤ S1.size a
  hwx3_8 : ∀ i : grid3.Coords, EltTy.bits .f32 = 32 ∨ (Rect.block (s := S1) S1.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S2000x1.size a ≤ S50000x1.size a
  hwx3_9 : ∀ i : grid3.Coords, EltTy.bits .f32 = 32 ∨ (Rect.block (s := S50000x1) S2000x1.size (cc3_transform_9 i) (hinb3_9 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v47) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v63) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S3x128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v64) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v64) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v77) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v93) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S3x128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v94) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v94) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v107) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v123) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S3x128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v124) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v124) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg10) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg11) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg12) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg13) S128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg14) S128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg15) S128x1.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_arg16) S1.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v125) S2000x1.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S3x128x128 : Shape := ⟨3, ![3, 128, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S1x128x128 : Shape := ⟨3, ![1, 128, 128]⟩
abbrev S800000x128 : Shape := ⟨2, ![800000, 128]⟩
abbrev S1x128 : Shape := ⟨2, ![1, 128]⟩
abbrev S50000x1 : Shape := ⟨2, ![50000, 1]⟩
abbrev S1x1 : Shape := ⟨2, ![1, 1]⟩

abbrev nBuf : Space → Nat
  | .hbm => 256
  | .vmem => 0
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S3x128x128, .f32⟩
  | 4 => ⟨S128, .f32⟩
  | 5 => ⟨S3x128x128, .f32⟩
  | 6 => ⟨S128, .f32⟩
  | 7 => ⟨S3x128x128, .f32⟩
  | 8 => ⟨S128, .f32⟩
  | 9 => ⟨S128x128, .f32⟩
  | 10 => ⟨S128, .f32⟩
  | 11 => ⟨S128, .f32⟩
  | 12 => ⟨S128, .f32⟩
  | 13 => ⟨S128, .f32⟩
  | 14 => ⟨S128, .f32⟩
  | 15 => ⟨S128x1, .f32⟩
  | 16 => ⟨S1, .f32⟩
  | 17 => ⟨S1x800000, .i32⟩
  | 18 => ⟨S800000, .i32⟩
  | 19 => ⟨S1x800000, .i32⟩
  | 20 => ⟨S800000, .i32⟩
  | 21 => ⟨S1x800000, .i32⟩
  | 22 => ⟨S800000, .i32⟩
  | 23 => ⟨S1x800000, .i32⟩
  | 24 => ⟨S800000, .i32⟩
  | 25 => ⟨S_, .f32⟩
  | 26 => ⟨S50000, .f32⟩
  | 27 => ⟨S800000x1, .i32⟩
  | 28 => ⟨S50000, .f32⟩
  | 29 => ⟨S_, .f32⟩
  | 30 => ⟨S50000, .f32⟩
  | 31 => ⟨S50000, .i1⟩
  | 32 => ⟨S_, .f32⟩
  | 33 => ⟨S50000, .f32⟩
  | 34 => ⟨S50000, .i1⟩
  | 35 => ⟨S_, .f32⟩
  | 36 => ⟨S_, .f32⟩
  | 37 => ⟨S50000, .f32⟩
  | 38 => ⟨S50000, .f32⟩
  | 39 => ⟨S50000, .f32⟩
  | 40 => ⟨S_, .f32⟩
  | 41 => ⟨S_, .f32⟩
  | 42 => ⟨S50000, .f32⟩
  | 43 => ⟨S50000, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000, .f32⟩
  | 53 => ⟨S800000, .f32⟩
  | 54 => ⟨S800000, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000, .f32⟩
  | 64 => ⟨S800000, .f32⟩
  | 65 => ⟨S1x128x128, .f32⟩
  | 66 => ⟨S128x128, .f32⟩
  | 67 => ⟨S50000x128, .f32⟩
  | 68 => ⟨S800000x1, .f32⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S800000x128, .f32⟩
  | 78 => ⟨S800000x128, .f32⟩
  | 79 => ⟨S800000x128, .f32⟩
  | 80 => ⟨S_, .f32⟩
  | 81 => ⟨S50000x128, .f32⟩
  | 82 => ⟨S800000x1, .i32⟩
  | 83 => ⟨S50000x128, .f32⟩
  | 84 => ⟨S1x128x128, .f32⟩
  | 85 => ⟨S128x128, .f32⟩
  | 86 => ⟨S50000x128, .f32⟩
  | 87 => ⟨S50000x128, .f32⟩
  | 88 => ⟨S800000x1, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S800000x128, .f32⟩
  | 98 => ⟨S800000x128, .f32⟩
  | 99 => ⟨S800000x128, .f32⟩
  | 100 => ⟨S_, .f32⟩
  | 101 => ⟨S50000x128, .f32⟩
  | 102 => ⟨S800000x1, .i32⟩
  | 103 => ⟨S50000x128, .f32⟩
  | 104 => ⟨S_, .f32⟩
  | 105 => ⟨S50000x128, .f32⟩
  | 106 => ⟨S50000x128, .f32⟩
  | 107 => ⟨S50000x128, .f32⟩
  | 108 => ⟨S1x128x128, .f32⟩
  | 109 => ⟨S128x128, .f32⟩
  | 110 => ⟨S50000x128, .f32⟩
  | 111 => ⟨S50000x128, .f32⟩
  | 112 => ⟨S1x128, .f32⟩
  | 113 => ⟨S50000x128, .f32⟩
  | 114 => ⟨S50000x128, .f32⟩
  | 115 => ⟨S_, .f32⟩
  | 116 => ⟨S50000x128, .f32⟩
  | 117 => ⟨S50000x128, .f32⟩
  | 118 => ⟨S1x128x128, .f32⟩
  | 119 => ⟨S128x128, .f32⟩
  | 120 => ⟨S50000x128, .f32⟩
  | 121 => ⟨S800000x1, .f32⟩
  | 122 => ⟨S_, .i32⟩
  | 123 => ⟨S800000, .i32⟩
  | 124 => ⟨S800000, .i1⟩
  | 125 => ⟨S_, .i32⟩
  | 126 => ⟨S800000, .i32⟩
  | 127 => ⟨S800000, .i32⟩
  | _ => ⟨S50000x128, .f32⟩

abbrev hbmTy0_1 (i : Nat) : BufTy := match i % 128 with
  | 0 => ⟨S800000, .i32⟩
  | 1 => ⟨S800000x1, .i32⟩
  | 2 => ⟨S800000x128, .f32⟩
  | 3 => ⟨S800000x128, .f32⟩
  | 4 => ⟨S800000x128, .f32⟩
  | 5 => ⟨S_, .f32⟩
  | 6 => ⟨S50000x128, .f32⟩
  | 7 => ⟨S800000x1, .i32⟩
  | 8 => ⟨S50000x128, .f32⟩
  | 9 => ⟨S1x128x128, .f32⟩
  | 10 => ⟨S128x128, .f32⟩
  | 11 => ⟨S50000x128, .f32⟩
  | 12 => ⟨S50000x128, .f32⟩
  | 13 => ⟨S800000x1, .f32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S800000x128, .f32⟩
  | 23 => ⟨S800000x128, .f32⟩
  | 24 => ⟨S800000x128, .f32⟩
  | 25 => ⟨S_, .f32⟩
  | 26 => ⟨S50000x128, .f32⟩
  | 27 => ⟨S800000x1, .i32⟩
  | 28 => ⟨S50000x128, .f32⟩
  | 29 => ⟨S_, .f32⟩
  | 30 => ⟨S50000x128, .f32⟩
  | 31 => ⟨S50000x128, .f32⟩
  | 32 => ⟨S50000x128, .f32⟩
  | 33 => ⟨S1x128x128, .f32⟩
  | 34 => ⟨S128x128, .f32⟩
  | 35 => ⟨S50000x128, .f32⟩
  | 36 => ⟨S50000x128, .f32⟩
  | 37 => ⟨S1x128, .f32⟩
  | 38 => ⟨S50000x128, .f32⟩
  | 39 => ⟨S50000x128, .f32⟩
  | 40 => ⟨S_, .f32⟩
  | 41 => ⟨S50000x128, .f32⟩
  | 42 => ⟨S50000x128, .f32⟩
  | 43 => ⟨S1x128x128, .f32⟩
  | 44 => ⟨S128x128, .f32⟩
  | 45 => ⟨S50000x128, .f32⟩
  | 46 => ⟨S800000x1, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000x128, .f32⟩
  | 56 => ⟨S800000x128, .f32⟩
  | 57 => ⟨S800000x128, .f32⟩
  | 58 => ⟨S_, .f32⟩
  | 59 => ⟨S50000x128, .f32⟩
  | 60 => ⟨S800000x1, .i32⟩
  | 61 => ⟨S50000x128, .f32⟩
  | 62 => ⟨S1x128x128, .f32⟩
  | 63 => ⟨S128x128, .f32⟩
  | 64 => ⟨S50000x128, .f32⟩
  | 65 => ⟨S50000x128, .f32⟩
  | 66 => ⟨S800000x1, .f32⟩
  | 67 => ⟨S_, .i32⟩
  | 68 => ⟨S800000, .i32⟩
  | 69 => ⟨S800000, .i1⟩
  | 70 => ⟨S_, .i32⟩
  | 71 => ⟨S800000, .i32⟩
  | 72 => ⟨S800000, .i32⟩
  | 73 => ⟨S800000, .i32⟩
  | 74 => ⟨S800000x1, .i32⟩
  | 75 => ⟨S800000x128, .f32⟩
  | 76 => ⟨S800000x128, .f32⟩
  | 77 => ⟨S800000x128, .f32⟩
  | 78 => ⟨S_, .f32⟩
  | 79 => ⟨S50000x128, .f32⟩
  | 80 => ⟨S800000x1, .i32⟩
  | 81 => ⟨S50000x128, .f32⟩
  | 82 => ⟨S_, .f32⟩
  | 83 => ⟨S50000x128, .f32⟩
  | 84 => ⟨S50000x128, .f32⟩
  | 85 => ⟨S50000x128, .f32⟩
  | 86 => ⟨S1x128x128, .f32⟩
  | 87 => ⟨S128x128, .f32⟩
  | 88 => ⟨S50000x128, .f32⟩
  | 89 => ⟨S50000x128, .f32⟩
  | 90 => ⟨S1x128, .f32⟩
  | 91 => ⟨S50000x128, .f32⟩
  | 92 => ⟨S50000x128, .f32⟩
  | 93 => ⟨S50000x128, .f32⟩
  | 94 => ⟨S1x128, .f32⟩
  | 95 => ⟨S50000x128, .f32⟩
  | 96 => ⟨S50000x128, .f32⟩
  | 97 => ⟨S1x128, .f32⟩
  | 98 => ⟨S50000x128, .f32⟩
  | 99 => ⟨S50000x128, .f32⟩
  | 100 => ⟨S_, .f32⟩
  | 101 => ⟨S128, .f32⟩
  | 102 => ⟨S128, .f32⟩
  | 103 => ⟨S128, .f32⟩
  | 104 => ⟨S1x128, .f32⟩
  | 105 => ⟨S50000x128, .f32⟩
  | 106 => ⟨S50000x128, .f32⟩
  | 107 => ⟨S1x128, .f32⟩
  | 108 => ⟨S50000x128, .f32⟩
  | 109 => ⟨S50000x128, .f32⟩
  | 110 => ⟨S1x128, .f32⟩
  | 111 => ⟨S50000x128, .f32⟩
  | 112 => ⟨S50000x128, .f32⟩
  | 113 => ⟨S_, .f32⟩
  | 114 => ⟨S50000x128, .f32⟩
  | 115 => ⟨S50000x128, .f32⟩
  | 116 => ⟨S50000x1, .f32⟩
  | 117 => ⟨S1x1, .f32⟩
  | 118 => ⟨S50000x1, .f32⟩
  | 119 => ⟨S50000x1, .f32⟩
  | 120 => ⟨S50000x1, .f32⟩
  | 121 => ⟨S50000x1, .f32⟩
  | 122 => ⟨S_, .f32⟩
  | 123 => ⟨S50000x1, .f32⟩
  | 124 => ⟨S50000x1, .f32⟩
  | 125 => ⟨S_, .f32⟩
  | 126 => ⟨S50000x1, .f32⟩
  | 127 => ⟨S50000x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_0 : Ref sig .tc := ⟨.hbm, 29, rfl⟩
abbrev main_v11 : Ref sig .tc := ⟨.hbm, 30, rfl⟩
abbrev main_v12 : Ref sig .tc := ⟨.hbm, 31, rfl⟩
abbrev main_cst_1 : Ref sig .tc := ⟨.hbm, 32, rfl⟩
abbrev main_v13 : Ref sig .tc := ⟨.hbm, 33, rfl⟩
abbrev main_v14 : Ref sig .tc := ⟨.hbm, 34, rfl⟩
abbrev main_cst_2 : Ref sig .tc := ⟨.hbm, 35, rfl⟩
abbrev main_call0_v0 : Ref sig .tc := ⟨.hbm, 36, rfl⟩
abbrev main_call0_v1 : Ref sig .tc := ⟨.hbm, 37, rfl⟩
abbrev main_v15 : Ref sig .tc := ⟨.hbm, 38, rfl⟩
abbrev main_v16 : Ref sig .tc := ⟨.hbm, 39, rfl⟩
abbrev main_cst_3 : Ref sig .tc := ⟨.hbm, 40, rfl⟩
abbrev main_call1_v0 : Ref sig .tc := ⟨.hbm, 41, rfl⟩
abbrev main_call1_v1 : Ref sig .tc := ⟨.hbm, 42, rfl⟩
abbrev main_v17 : Ref sig .tc := ⟨.hbm, 43, rfl⟩
abbrev main_c : Ref sig .tc := ⟨.hbm, 44, rfl⟩
abbrev main_v18 : Ref sig .tc := ⟨.hbm, 45, rfl⟩
abbrev main_v19 : Ref sig .tc := ⟨.hbm, 46, rfl⟩
abbrev main_c_4 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_c_5 : Ref sig .tc := ⟨.hbm, 55, rfl⟩
abbrev main_v27 : Ref sig .tc := ⟨.hbm, 56, rfl⟩
abbrev main_v28 : Ref sig .tc := ⟨.hbm, 57, rfl⟩
abbrev main_c_6 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_c_7 : Ref sig .tc := ⟨.hbm, 69, rfl⟩
abbrev main_v39 : Ref sig .tc := ⟨.hbm, 70, rfl⟩
abbrev main_v40 : Ref sig .tc := ⟨.hbm, 71, rfl⟩
abbrev main_c_8 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_cst_9 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_c_10 : Ref sig .tc := ⟨.hbm, 89, rfl⟩
abbrev main_v56 : Ref sig .tc := ⟨.hbm, 90, rfl⟩
abbrev main_v57 : Ref sig .tc := ⟨.hbm, 91, rfl⟩
abbrev main_c_11 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_12 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_cst_13 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_call2_cst : Ref sig .tc := ⟨.hbm, 115, rfl⟩
abbrev main_call2_v0 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_c_14 : Ref sig .tc := ⟨.hbm, 122, rfl⟩
abbrev main_v83 : Ref sig .tc := ⟨.hbm, 123, rfl⟩
abbrev main_v84 : Ref sig .tc := ⟨.hbm, 124, rfl⟩
abbrev main_c_15 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_cst_16 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_c_17 : Ref sig .tc := ⟨.hbm, 142, rfl⟩
abbrev main_v100 : Ref sig .tc := ⟨.hbm, 143, rfl⟩
abbrev main_v101 : Ref sig .tc := ⟨.hbm, 144, rfl⟩
abbrev main_c_18 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_cst_19 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_cst_20 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_call3_cst : Ref sig .tc := ⟨.hbm, 168, rfl⟩
abbrev main_call3_v0 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_c_21 : Ref sig .tc := ⟨.hbm, 175, rfl⟩
abbrev main_v127 : Ref sig .tc := ⟨.hbm, 176, rfl⟩
abbrev main_v128 : Ref sig .tc := ⟨.hbm, 177, rfl⟩
abbrev main_c_22 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_cst_23 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_c_24 : Ref sig .tc := ⟨.hbm, 195, rfl⟩
abbrev main_v144 : Ref sig .tc := ⟨.hbm, 196, rfl⟩
abbrev main_v145 : Ref sig .tc := ⟨.hbm, 197, rfl⟩
abbrev main_c_25 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_cst_26 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_cst_27 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_cst_28 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_v176 : Ref sig .tc := ⟨.hbm, 232, rfl⟩
abbrev main_v177 : Ref sig .tc := ⟨.hbm, 233, rfl⟩
abbrev main_v178 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_v182 : Ref sig .tc := ⟨.hbm, 238, rfl⟩
abbrev main_v183 : Ref sig .tc := ⟨.hbm, 239, rfl⟩
abbrev main_v184 : Ref sig .tc := ⟨.hbm, 240, rfl⟩
abbrev main_call4_cst : Ref sig .tc := ⟨.hbm, 241, rfl⟩
abbrev main_call4_v0 : Ref sig .tc := ⟨.hbm, 242, rfl⟩
abbrev main_v185 : Ref sig .tc := ⟨.hbm, 243, rfl⟩
abbrev main_v186 : Ref sig .tc := ⟨.hbm, 244, rfl⟩
abbrev main_v187 : Ref sig .tc := ⟨.hbm, 245, rfl⟩
abbrev main_v188 : Ref sig .tc := ⟨.hbm, 246, rfl⟩
abbrev main_v189 : Ref sig .tc := ⟨.hbm, 247, rfl⟩
abbrev main_v190 : Ref sig .tc := ⟨.hbm, 248, rfl⟩
abbrev main_v191 : Ref sig .tc := ⟨.hbm, 249, rfl⟩
abbrev main_cst_29 : Ref sig .tc := ⟨.hbm, 250, rfl⟩
abbrev main_v192 : Ref sig .tc := ⟨.hbm, 251, rfl⟩
abbrev main_v193 : Ref sig .tc := ⟨.hbm, 252, rfl⟩
abbrev main_cst_30 : Ref sig .tc := ⟨.hbm, 253, rfl⟩
abbrev main_v194 : Ref sig .tc := ⟨.hbm, 254, rfl⟩
abbrev main_v195 : Ref sig .tc := ⟨.hbm, 255, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  slices_S3x128x128_S1x128x128_0_0_0 : S3x128x128.Slices ![0, 0, 0] S1x128x128
  shapeCasts_S1x128x128_S128x128 : S1x128x128.ShapeCasts S128x128
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  slices_S3x128x128_S1x128x128_1_0_0 : S3x128x128.Slices ![1, 0, 0] S1x128x128
  slices_S3x128x128_S1x128x128_2_0_0 : S3x128x128.Slices ![2, 0, 0] S1x128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x1_S50000x1_1_0_0_1_n_n_wf : DotDims.WF S50000x128 S128x1 S50000x1 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.KernelRun.lean ====
/-
  The idealized kernel program's run with its RESULT named.

  The program is eleven segments: five stretches of host operations, the first layer's kernel, a stretch, the second
  layer's kernel, a stretch, the third layer's kernel and the head's kernel.  The buffers' contents at each boundary
  are a fold from the launch memory (host operations applied in order; a kernel's output array replaced by what its
  grid points wrote back).  Every weakly fair execution ends with every buffer at the last fold, `W11`; the frame
  theorem keeps only the arguments of that fact, here the result buffer is kept as well.
-/
import proofs.«135729_j76433238000372_1_alg».proof.Proof.Gen.KernelIdeal.Frame

set_option maxRecDepth 16384

noncomputable section

namespace Cert.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, with the result buffer at the last
    boundary's contents and the seventeen arguments as launched. -/
theorem run_result : θ_run defs (onTc (τ := τ) (main (F := F))) ⟨m, fun _ => 0, ρ⟩ (fun r => ∀ c : Dev nD,
      r.2.mem ((c.tc : Thread nD τ).loc main_v125) = W11 m ρ c (Proc.devRef .tc main_v125)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v125 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c),
       (h c _ (mem_uc main_arg13 (by decide))).trans (W11_main_arg13 m ρ c),
       (h c _ (mem_uc main_arg14 (by decide))).trans (W11_main_arg14 m ρ c),
       (h c _ (mem_uc main_arg15 (by decide))).trans (W11_main_arg15 m ρ c),
       (h c _ (mem_uc main_arg16 (by decide))).trans (W11_main_arg16 m ρ c)⟩)

end Cert.KernelRun

end
-- ==== Proof.Spec.lean ====
/-
  The network's dense stages as functions of whole arrays, entry by entry, over the extended reals.

  One Chebyshev layer combines three node-feature arrays T0, T1, T2 (50000 nodes, 128 features each) with a stack of
  three 128 x 128 weight matrices W and a bias b:
      combine T0 T1 T2 W b (r, c) = ((sum_k T0(r,k) W(0,k,c) + sum_k T1(r,k) W(1,k,c)) + sum_k T2(r,k) W(2,k,c)) + b(c),
  the three products added left to right and the bias last; the rectified layer takes the maximum with zero.
  The head maps a node's 128 features h(r, .) to one number: a linear map with bias, a per-feature affine
  normalisation by running statistics, rectification, a dot product with a weight column, a bias and the logistic
  function.  Entry (r, c) of a layer depends on row r of each T only, and the head's entry r on row r of h only: that
  is why a tiling of the rows into blocks computes the same arrays.
-/
import Idealize.ShloMosaic.PureOps.Ideal
import Idealize.ShloMosaic.Lib.ValueIdx

noncomputable section

namespace Cert.Spec

open Idealize.ShloMosaic Idealize.ShloMosaic.ValueIdx

/-- Node features: 50000 nodes, 128 features. -/
abbrev Feat := (⟨2, ![50000, 128]⟩ : Shape).Idx → EReal
/-- Three stacked 128 x 128 weight matrices. -/
abbrev Wts := (⟨3, ![3, 128, 128]⟩ : Shape).Idx → EReal
/-- A vector of 128 features. -/
abbrev Row := (⟨1, ![128]⟩ : Shape).Idx → EReal
/-- One 128 x 128 matrix. -/
abbrev Mat := (⟨2, ![128, 128]⟩ : Shape).Idx → EReal
/-- A 128 x 1 weight column. -/
abbrev Col := (⟨2, ![128, 1]⟩ : Shape).Idx → EReal
/-- A single number as a one-entry vector. -/
abbrev One := (⟨1, ![1]⟩ : Shape).Idx → EReal
/-- One number per node. -/
abbrev Out := (⟨2, ![50000, 1]⟩ : Shape).Idx → EReal

/-- The float zero the rectifier compares with, kept as its word. -/
abbrev zero : EReal := Ideal.ofBits .f32 0x00000000#32

/-- Entry (r, c) of a layer before rectification. -/
def combineAt (a0 a1 a2 : Feat) (w : Wts) (b : Row) (r : Fin 50000) (c : Fin 128) : EReal :=
  (((∑ k : Fin 128, a0 (ix2 r k) * w (ix3 (0 : Fin 3) k c)) + (∑ k : Fin 128, a1 (ix2 r k) * w (ix3 (1 : Fin 3) k c)))
    + (∑ k : Fin 128, a2 (ix2 r k) * w (ix3 (2 : Fin 3) k c))) + b (ix1 c)

/-- A layer without rectification, as a whole array. -/
def combine (a0 a1 a2 : Feat) (w : Wts) (b : Row) : Feat := fun i => combineAt a0 a1 a2 w b (i 0) (i 1)

/-- A rectified layer, as a whole array. -/
def combineRelu (a0 a1 a2 : Feat) (w : Wts) (b : Row) : Feat := fun i => max (combineAt a0 a1 a2 w b (i 0) (i 1)) zero

/-- Feature k of node r after the head's first linear map, normalisation and rectification. -/
def hiddenAt (h : Feat) (w1 : Mat) (b1 gamma beta mean var : Row) (r : Fin 50000) (k : Fin 128) : EReal :=
  max (((((∑ j : Fin 128, h (ix2 r j) * w1 (ix2 j k)) + b1 (ix1 k)) - mean (ix1 k))
      * Ideal.rsqrt (var (ix1 k) + Ideal.ofBits .f32 0x3727C5AC#32)) * gamma (ix1 k) + beta (ix1 k)) zero

/-- The head's output for node r. -/
def headAt (h : Feat) (w1 : Mat) (b1 gamma beta mean var : Row) (w2 : Col) (b2 : One) (r : Fin 50000) : EReal :=
  Ideal.logistic ((∑ k : Fin 128, hiddenAt h w1 b1 gamma beta mean var r k * w2 (ix2 k (0 : Fin 1))) + b2 (ix1 (0 : Fin 1)))

/-- The head, as a whole array. -/
def head (h : Feat) (w1 : Mat) (b1 gamma beta mean var : Row) (w2 : Col) (b2 : One) : Out :=
  fun i => headAt h w1 b1 gamma beta mean var w2 b2 (i 0)

theorem combine_apply (a0 a1 a2 : Feat) (w : Wts) (b : Row) (r : Fin 50000) (c : Fin 128) :
    combine a0 a1 a2 w b (ix2 r c) = combineAt a0 a1 a2 w b r c := rfl

theorem combineRelu_apply (a0 a1 a2 : Feat) (w : Wts) (b : Row) (r : Fin 50000) (c : Fin 128) :
    combineRelu a0 a1 a2 w b (ix2 r c) = max (combineAt a0 a1 a2 w b r c) zero := rfl

theorem head_apply (h : Feat) (w1 : Mat) (b1 gamma beta mean var : Row) (w2 : Col) (b2 : One) (r : Fin 50000) (z : Fin 1) :
    head h w1 b1 gamma beta mean var w2 b2 (ix2 r z) = headAt h w1 b1 gamma beta mean var w2 b2 r := rfl

end Cert.Spec

end
-- ==== Proof.HostChain.lean ====
/-
  The host operations between the kernels are the reference's own.

  Both programs normalise the graph the same way and propagate features along the edges the same way: the edge
  sources and destinations are the two rows of the edge index; the normalised weight of an edge is minus its weight
  times the inverse square roots of the weighted degrees of its endpoints (zero where the degree is not positive); a
  propagation gathers the source rows, scales them by the normalised weights and adds them into the destination rows.
  Here the idealized kernel program's buffers at each boundary between segments are identified with the reference's
  stages: the edge data and the first layer's inputs T1 = P x and T2 = 2 P (P x) - x from the launch contents, and the
  later layers' inputs from the previous layer's output, whatever array H that output is once it is known to be the
  reference's corresponding stage.  Nothing is computed: the two spellings are the same term.
-/
import proofs.«135729_j76433238000372_1_alg».proof.Proof.Gen.KernelIdeal.Frame
import proofs.«135729_j76433238000372_1_alg».proof.Proof.Gen.ReferenceIdeal.Read
import Idealize.ShloMosaic.Lib.StableHlo.Run

set_option maxRecDepth 16384

noncomputable section

namespace Cert.HostChain

open Cert.KernelIdeal Cert.KernelIdeal.Gen Idealize.ShloMosaic Idealize.ShloMosaic.TcCoe Idealize.SL.Sem Idealize.ShloMosaic.StableHlo
open Cert.ReferenceIdeal.Read

variable (m : (ℓ : Loc nD τ sig) → Buf (Elt Ideal) ℓ) (ρ : Dev nD → PrngReg) (c : Dev nD)

/-! ## Up to the first layer's kernel -/

/-! The two stretches that select by a condition pass their values through typed references; these are the identity. -/
theorem toBuf_main_cst_2 (v : (⟨S_, .f32⟩ : BufTy).Contents (Elt Ideal)) : (TRef.of (sig := sig) (T := ⟨S_, .f32⟩) main_cst_2).toBuf v = v := rfl
theorem ofBuf_main_cst_2 (v : (main_cst_2 : Ref sig .tc).ty.Contents (Elt Ideal)) : (TRef.of (sig := sig) (T := ⟨S_, .f32⟩) main_cst_2).ofBuf v = v := rfl
theorem toBuf_main_call0_v0 (v : (⟨S_, .f32⟩ : BufTy).Contents (Elt Ideal)) : (TRef.of (sig := sig) (T := ⟨S_, .f32⟩) main_call0_v0).toBuf v = v := rfl
theorem ofBuf_main_call0_v0 (v : (main_call0_v0 : Ref sig .tc).ty.Contents (Elt Ideal)) : (TRef.of (sig := sig) (T := ⟨S_, .f32⟩) main_call0_v0).ofBuf v = v := rfl
theorem toBuf_main_call0_v1 (v : (⟨S50000, .f32⟩ : BufTy).Contents (Elt Ideal)) : (TRef.of (sig := sig) (T := ⟨S50000, .f32⟩) main_call0_v1).toBuf v = v := rfl
theorem ofBuf_main_call0_v1 (v : (main_call0_v1 : Ref sig .tc).ty.Contents (Elt Ideal)) : (TRef.of (sig := sig) (T := ⟨S50000, .f32⟩) main_call0_v1).ofBuf v = v := rfl
theorem toBuf_main_v14 (v : (⟨S50000, .i1⟩ : BufTy).Contents (Elt Ideal)) : (TRef.of (sig := sig) (T := ⟨S50000, .i1⟩) main_v14).toBuf v = v := rfl
theorem ofBuf_main_v14 (v : (main_v14 : Ref sig .tc).ty.Contents (Elt Ideal)) : (TRef.of (sig := sig) (T := ⟨S50000, .i1⟩) main_v14).ofBuf v = v := rfl
theorem toBuf_main_v10 (v : (⟨S50000, .f32⟩ : BufTy).Contents (Elt Ideal)) : (TRef.of (sig := sig) (T := ⟨S50000, .f32⟩) main_v10).toBuf v = v := rfl
theorem ofBuf_main_v10 (v : (main_v10 : Ref sig .tc).ty.Contents (Elt Ideal)) : (TRef.of (sig := sig) (T := ⟨S50000, .f32⟩) main_v10).ofBuf v = v := rfl
theorem toBuf_main_v15 (v : (⟨S50000, .f32⟩ : BufTy).Contents (Elt Ideal)) : (TRef.of (sig := sig) (T := ⟨S50000, .f32⟩) main_v15).toBuf v = v := rfl
theorem ofBuf_main_v15 (v : (main_v15 : Ref sig .tc).ty.Contents (Elt Ideal)) : (TRef.of (sig := sig) (T := ⟨S50000, .f32⟩) main_v15).ofBuf v = v := rfl
theorem toBuf_main_cst_3 (v : (⟨S_, .f32⟩ : BufTy).Contents (Elt Ideal)) : (TRef.of (sig := sig) (T := ⟨S_, .f32⟩) main_cst_3).toBuf v = v := rfl
theorem ofBuf_main_cst_3 (v : (main_cst_3 : Ref sig .tc).ty.Contents (Elt Ideal)) : (TRef.of (sig := sig) (T := ⟨S_, .f32⟩) main_cst_3).ofBuf v = v := rfl
theorem toBuf_main_call1_v0 (v : (⟨S_, .f32⟩ : BufTy).Contents (Elt Ideal)) : (TRef.of (sig := sig) (T := ⟨S_, .f32⟩) main_call1_v0).toBuf v = v := rfl
theorem ofBuf_main_call1_v0 (v : (main_call1_v0 : Ref sig .tc).ty.Contents (Elt Ideal)) : (TRef.of (sig := sig) (T := ⟨S_, .f32⟩) main_call1_v0).ofBuf v = v := rfl
theorem toBuf_main_call1_v1 (v : (⟨S50000, .f32⟩ : BufTy).Contents (Elt Ideal)) : (TRef.of (sig := sig) (T := ⟨S50000, .f32⟩) main_call1_v1).toBuf v = v := rfl
theorem ofBuf_main_call1_v1 (v : (main_call1_v1 : Ref sig .tc).ty.Contents (Elt Ideal)) : (TRef.of (sig := sig) (T := ⟨S50000, .f32⟩) main_call1_v1).ofBuf v = v := rfl
theorem toBuf_main_v12 (v : (⟨S50000, .i1⟩ : BufTy).Contents (Elt Ideal)) : (TRef.of (sig := sig) (T := ⟨S50000, .i1⟩) main_v12).toBuf v = v := rfl
theorem ofBuf_main_v12 (v : (main_v12 : Ref sig .tc).ty.Contents (Elt Ideal)) : (TRef.of (sig := sig) (T := ⟨S50000, .i1⟩) main_v12).ofBuf v = v := rfl
theorem toBuf_main_v16 (v : (⟨S50000, .f32⟩ : BufTy).Contents (Elt Ideal)) : (TRef.of (sig := sig) (T := ⟨S50000, .f32⟩) main_v16).toBuf v = v := rfl
theorem ofBuf_main_v16 (v : (main_v16 : Ref sig .tc).ty.Contents (Elt Ideal)) : (TRef.of (sig := sig) (T := ⟨S50000, .f32⟩) main_v16).ofBuf v = v := rfl
theorem toBuf_main_v17 (v : (⟨S50000, .f32⟩ : BufTy).Contents (Elt Ideal)) : (TRef.of (sig := sig) (T := ⟨S50000, .f32⟩) main_v17).toBuf v = v := rfl
theorem ofBuf_main_v17 (v : (main_v17 : Ref sig .tc).ty.Contents (Elt Ideal)) : (TRef.of (sig := sig) (T := ⟨S50000, .f32⟩) main_v17).ofBuf v = v := rfl

/-! ### From the launch contents: the edge index's rows, the weighted degrees and the comparisons with zero -/
theorem src1 : W1 m ρ c (Proc.devRef .tc main_v1) = val_main_v1 (F := Ideal) (m ((c : Thread nD τ).loc main_arg1)) := by
  dsimp only [W1, hostOps0]
  after_results_simp
  unfold val_main_v1 val_main_v0
  rfl

theorem dst1 : W1 m ρ c (Proc.devRef .tc main_v3) = val_main_v3 (F := Ideal) (m ((c : Thread nD τ).loc main_arg1)) := by
  dsimp only [W1, hostOps0]
  after_results_simp
  unfold val_main_v3 val_main_v2
  rfl

theorem deg1 : W1 m ρ c (Proc.devRef .tc main_v10) = val_main_v10 (F := Ideal) (m ((c : Thread nD τ).loc main_arg1)) (m ((c : Thread nD τ).loc main_arg2)) := by
  dsimp only [W1, hostOps0]
  after_results_simp
  unfold val_main_v10 val_main_v9 val_main_v8 val_main_cst val_main_v5 val_main_v4
  rfl

theorem pos1a : W1 m ρ c (Proc.devRef .tc main_v12) = val_main_v12 (F := Ideal) (m ((c : Thread nD τ).loc main_arg1)) (m ((c : Thread nD τ).loc main_arg2)) := by
  dsimp only [W1, hostOps0]
  after_results_simp
  unfold val_main_v12 val_main_v11 val_main_cst_0 val_main_v10 val_main_v9 val_main_v8 val_main_cst val_main_v5 val_main_v4
  rfl

theorem pos1b : W1 m ρ c (Proc.devRef .tc main_v14) = val_main_v14 (F := Ideal) (m ((c : Thread nD τ).loc main_arg1)) (m ((c : Thread nD τ).loc main_arg2)) := by
  dsimp only [W1, hostOps0]
  after_results_simp
  unfold val_main_v14 val_main_v13 val_main_cst_1 val_main_v10 val_main_v9 val_main_v8 val_main_cst val_main_v5 val_main_v4
  rfl

theorem one1 : W1 m ρ c (Proc.devRef .tc main_cst_2) = val_main_cst_2 (F := Ideal) := by
  dsimp only [W1, hostOps0]
  after_results_simp
  unfold val_main_cst_2
  rfl

/-- The degrees with one in place of a degree that is not positive. -/
theorem safe2 : W2 m ρ c (Proc.devRef .tc main_v15) = val_main_v15 (F := Ideal) (m ((c : Thread nD τ).loc main_arg1)) (m ((c : Thread nD τ).loc main_arg2)) := by
  have e0 := pos1b m ρ c
  have e1 := deg1 m ρ c
  have e2 := one1 m ρ c
  dsimp only [W2, hostOps0_1]
  generalize W1 m ρ c = X at e0 e1 e2 ⊢
  after_results_simp
  rw [e0, e1, e2]
  rw [toBuf_main_v15, ofBuf_main_v14, ofBuf_main_v10, ofBuf_main_call0_v1, toBuf_main_call0_v1, ofBuf_main_call0_v0, toBuf_main_call0_v0, ofBuf_main_cst_2]
  unfold val_main_v15 val_main_call0_v1 val_main_call0_v0
  rfl

theorem pos3 : W3 m ρ c (Proc.devRef .tc main_v12) = val_main_v12 (F := Ideal) (m ((c : Thread nD τ).loc main_arg1)) (m ((c : Thread nD τ).loc main_arg2)) := by
  dsimp only [W3, W2, W1, hostOps0, hostOps0_1, hostOps0_2]
  after_results_simp
  unfold val_main_v12 val_main_v11 val_main_cst_0 val_main_v10 val_main_v9 val_main_v8 val_main_cst val_main_v5 val_main_v4
  rfl

/-- Their inverse square roots. -/
theorem rs3 : W3 m ρ c (Proc.devRef .tc main_v16) = val_main_v16 (F := Ideal) (m ((c : Thread nD τ).loc main_arg1)) (m ((c : Thread nD τ).loc main_arg2)) := by
  have e0 := safe2 m ρ c
  dsimp only [W3, hostOps0_2]
  generalize W2 m ρ c = X at e0 ⊢
  after_results_simp
  rw [e0]
  unfold val_main_v16
  rfl

theorem zero3 : W3 m ρ c (Proc.devRef .tc main_cst_3) = val_main_cst_3 (F := Ideal) := by
  dsimp only [W3, W2, W1, hostOps0, hostOps0_1, hostOps0_2]
  after_results_simp
  unfold val_main_cst_3
  rfl

/-- The inverse square roots of the degrees, zero where the degree is not positive. -/
theorem dinv4 : W4 m ρ c (Proc.devRef .tc main_v17) = val_main_v17 (F := Ideal) (m ((c : Thread nD τ).loc main_arg1)) (m ((c : Thread nD τ).loc main_arg2)) := by
  have e0 := pos3 m ρ c
  have e1 := rs3 m ρ c
  have e2 := zero3 m ρ c
  dsimp only [W4, hostOps0_3]
  generalize W3 m ρ c = X at e0 e1 e2 ⊢
  after_results_simp
  rw [e0, e1, e2]
  rw [toBuf_main_v17, ofBuf_main_v12, ofBuf_main_v16, ofBuf_main_call1_v1, toBuf_main_call1_v1, ofBuf_main_call1_v0, toBuf_main_call1_v0, ofBuf_main_cst_3]
  unfold val_main_v17 val_main_call1_v1 val_main_call1_v0
  rfl

/-! ### What the long stretch before the first kernel reads -/
theorem src4 : W4 m ρ c (Proc.devRef .tc main_v1) = val_main_v1 (F := Ideal) (m ((c : Thread nD τ).loc main_arg1)) := by
  dsimp only [W4, W3, W2, W1, hostOps0, hostOps0_1, hostOps0_2, hostOps0_3]
  after_results_simp
  unfold val_main_v1 val_main_v0
  rfl

theorem dst4 : W4 m ρ c (Proc.devRef .tc main_v3) = val_main_v3 (F := Ideal) (m ((c : Thread nD τ).loc main_arg1)) := by
  dsimp only [W4, W3, W2, W1, hostOps0, hostOps0_1, hostOps0_2, hostOps0_3]
  after_results_simp
  unfold val_main_v3 val_main_v2
  rfl

theorem srcb4 : W4 m ρ c (Proc.devRef .tc main_v5) = val_main_v5 (F := Ideal) (m ((c : Thread nD τ).loc main_arg1)) := by
  dsimp only [W4, W3, W2, W1, hostOps0, hostOps0_1, hostOps0_2, hostOps0_3]
  after_results_simp
  unfold val_main_v5 val_main_v4
  rfl

theorem dstb4 : W4 m ρ c (Proc.devRef .tc main_v7) = val_main_v7 (F := Ideal) (m ((c : Thread nD τ).loc main_arg1)) := by
  dsimp only [W4, W3, W2, W1, hostOps0, hostOps0_1, hostOps0_2, hostOps0_3]
  after_results_simp
  unfold val_main_v7 val_main_v6
  rfl

theorem wts4 : W4 m ρ c (Proc.devRef .tc main_arg2) = (m ((c : Thread nD τ).loc main_arg2)) := by
  dsimp only [W4, W3, W2, W1, hostOps0, hostOps0_1, hostOps0_2, hostOps0_3]
  after_results_simp <;> rfl

theorem feat4 : W4 m ρ c (Proc.devRef .tc main_arg0) = (m ((c : Thread nD τ).loc main_arg0)) := by
  dsimp only [W4, W3, W2, W1, hostOps0, hostOps0_1, hostOps0_2, hostOps0_3]
  after_results_simp <;> rfl

/-! ### The long stretch: the normalised weights and the first layer's two propagated arrays -/

set_option maxHeartbeats 4000000 in
/-- The normalised edge weights. -/
theorem nrm5 : W5 m ρ c (Proc.devRef .tc main_v34) = val_main_v34 (F := Ideal) (m ((c : Thread nD τ).loc main_arg1)) (m ((c : Thread nD τ).loc main_arg2)) := by
  have e0 := dinv4 m ρ c
  have e1 := srcb4 m ρ c
  have e2 := dstb4 m ρ c
  have e3 := wts4 m ρ c
  dsimp only [W5, hostOps0_4]
  generalize W4 m ρ c = X at e0 e1 e2 e3 ⊢
  after_results_simp
  rw [e0, e1, e2, e3]
  unfold val_main_v34 val_main_v33 val_main_v32 val_main_v31 val_main_v30 val_main_v29 val_main_c_6 val_main_v28 val_main_v27 val_main_c_5 val_main_v26 val_main_v25 val_main_v24 val_main_v23 val_main_v22 val_main_v21 val_main_v20 val_main_c_4 val_main_v19 val_main_v18 val_main_c
  rfl

set_option maxHeartbeats 4000000 in
/-- T1 of the first layer: the features propagated once. -/
theorem t1_5 : W5 m ρ c (Proc.devRef .tc main_v47) = val_main_v50 (F := Ideal) (m ((c : Thread nD τ).loc main_arg0)) (m ((c : Thread nD τ).loc main_arg1)) (m ((c : Thread nD τ).loc main_arg2)) := by
  have e0 := dinv4 m ρ c
  have e1 := srcb4 m ρ c
  have e2 := dstb4 m ρ c
  have e3 := wts4 m ρ c
  have e4 := src4 m ρ c
  have e5 := dst4 m ρ c
  have e6 := feat4 m ρ c
  dsimp only [W5, hostOps0_4]
  generalize W4 m ρ c = X at e0 e1 e2 e3 e4 e5 e6 ⊢
  after_results_simp
  rw [e0, e1, e2, e3, e4, e5, e6]
  unfold val_main_v50 val_main_v49 val_main_v48 val_main_cst_9 val_main_v47 val_main_v46 val_main_v45 val_main_v44 val_main_v43 val_main_v42 val_main_v41 val_main_c_8 val_main_v40 val_main_v39 val_main_c_7 val_main_v38 val_main_v34 val_main_v33 val_main_v32 val_main_v31 val_main_v30 val_main_v29 val_main_c_6 val_main_v28 val_main_v27 val_main_c_5 val_main_v26 val_main_v25 val_main_v24 val_main_v23 val_main_v22 val_main_v21 val_main_v20 val_main_c_4 val_main_v19 val_main_v18 val_main_c
  rfl

set_option maxHeartbeats 8000000 in
/-- T2 of the first layer: twice the features propagated twice, minus the features. -/
theorem t2_5 : W5 m ρ c (Proc.devRef .tc main_v63) = val_main_v70 (F := Ideal) (m ((c : Thread nD τ).loc main_arg0)) (m ((c : Thread nD τ).loc main_arg1)) (m ((c : Thread nD τ).loc main_arg2)) := by
  have e0 := dinv4 m ρ c
  have e1 := srcb4 m ρ c
  have e2 := dstb4 m ρ c
  have e3 := wts4 m ρ c
  have e4 := src4 m ρ c
  have e5 := dst4 m ρ c
  have e6 := feat4 m ρ c
  dsimp only [W5, hostOps0_4]
  generalize W4 m ρ c = X at e0 e1 e2 e3 e4 e5 e6 ⊢
  after_results_simp
  rw [e0, e1, e2, e3, e4, e5, e6]
  unfold val_main_v70 val_main_v69 val_main_v68 val_main_cst_13 val_main_v67 val_main_v66 val_main_v65 val_main_cst_12 val_main_v64 val_main_v63 val_main_v62 val_main_v61 val_main_v60 val_main_v59 val_main_v58 val_main_c_11 val_main_v57 val_main_v56 val_main_c_10 val_main_v55 val_main_v50 val_main_v49 val_main_v48 val_main_cst_9 val_main_v47 val_main_v46 val_main_v45 val_main_v44 val_main_v43 val_main_v42 val_main_v41 val_main_c_8 val_main_v40 val_main_v39 val_main_c_7 val_main_v38 val_main_v34 val_main_v33 val_main_v32 val_main_v31 val_main_v30 val_main_v29 val_main_c_6 val_main_v28 val_main_v27 val_main_c_5 val_main_v26 val_main_v25 val_main_v24 val_main_v23 val_main_v22 val_main_v21 val_main_v20 val_main_c_4 val_main_v19 val_main_v18 val_main_c
  rfl

theorem src5 : W5 m ρ c (Proc.devRef .tc main_v1) = val_main_v1 (F := Ideal) (m ((c : Thread nD τ).loc main_arg1)) := by
  dsimp only [W5, W4, W3, W2, W1, hostOps0, hostOps0_1, hostOps0_2, hostOps0_3, hostOps0_4]
  after_results_simp
  unfold val_main_v1 val_main_v0
  rfl

theorem dst5 : W5 m ρ c (Proc.devRef .tc main_v3) = val_main_v3 (F := Ideal) (m ((c : Thread nD τ).loc main_arg1)) := by
  dsimp only [W5, W4, W3, W2, W1, hostOps0, hostOps0_1, hostOps0_2, hostOps0_3, hostOps0_4]
  after_results_simp
  unfold val_main_v3 val_main_v2
  rfl

theorem arg0_5 : W5 m ρ c (Proc.devRef .tc main_arg0) = (m ((c : Thread nD τ).loc main_arg0)) := by
  dsimp only [W5, W4, W3, W2, W1, hostOps0, hostOps0_1, hostOps0_2, hostOps0_3, hostOps0_4]
  after_results_simp <;> rfl
theorem arg3_5 : W5 m ρ c (Proc.devRef .tc main_arg3) = (m ((c : Thread nD τ).loc main_arg3)) := by
  dsimp only [W5, W4, W3, W2, W1, hostOps0, hostOps0_1, hostOps0_2, hostOps0_3, hostOps0_4]
  after_results_simp <;> rfl
theorem arg4_5 : W5 m ρ c (Proc.devRef .tc main_arg4) = (m ((c : Thread nD τ).loc main_arg4)) := by
  dsimp only [W5, W4, W3, W2, W1, hostOps0, hostOps0_1, hostOps0_2, hostOps0_3, hostOps0_4]
  after_results_simp <;> rfl
theorem arg5_5 : W5 m ρ c (Proc.devRef .tc main_arg5) = (m ((c : Thread nD τ).loc main_arg5)) := by
  dsimp only [W5, W4, W3, W2, W1, hostOps0, hostOps0_1, hostOps0_2, hostOps0_3, hostOps0_4]
  after_results_simp <;> rfl
theorem arg6_5 : W5 m ρ c (Proc.devRef .tc main_arg6) = (m ((c : Thread nD τ).loc main_arg6)) := by
  dsimp only [W5, W4, W3, W2, W1, hostOps0, hostOps0_1, hostOps0_2, hostOps0_3, hostOps0_4]
  after_results_simp <;> rfl
theorem arg7_5 : W5 m ρ c (Proc.devRef .tc main_arg7) = (m ((c : Thread nD τ).loc main_arg7)) := by
  dsimp only [W5, W4, W3, W2, W1, hostOps0, hostOps0_1, hostOps0_2, hostOps0_3, hostOps0_4]
  after_results_simp <;> rfl
theorem arg8_5 : W5 m ρ c (Proc.devRef .tc main_arg8) = (m ((c : Thread nD τ).loc main_arg8)) := by
  dsimp only [W5, W4, W3, W2, W1, hostOps0, hostOps0_1, hostOps0_2, hostOps0_3, hostOps0_4]
  after_results_simp <;> rfl

/-! ## Through the first kernel and the stretch after it -/

theorem src6 : W6 m ρ c (Proc.devRef .tc main_v1) = val_main_v1 (F := Ideal) (m ((c : Thread nD τ).loc main_arg1)) :=
  (W6_of_ne m ρ c main_v1 (by decide)).trans (src5 m ρ c)
theorem dst6 : W6 m ρ c (Proc.devRef .tc main_v3) = val_main_v3 (F := Ideal) (m ((c : Thread nD τ).loc main_arg1)) :=
  (W6_of_ne m ρ c main_v3 (by decide)).trans (dst5 m ρ c)
theorem nrm6 : W6 m ρ c (Proc.devRef .tc main_v34) = val_main_v34 (F := Ideal) (m ((c : Thread nD τ).loc main_arg1)) (m ((c : Thread nD τ).loc main_arg2)) :=
  (W6_of_ne m ρ c main_v34 (by decide)).trans (nrm5 m ρ c)
theorem arg5_6 : W6 m ρ c (Proc.devRef .tc main_arg5) = (m ((c : Thread nD τ).loc main_arg5)) := (W6_of_ne m ρ c main_arg5 (by decide)).trans (arg5_5 m ρ c)
theorem arg6_6 : W6 m ρ c (Proc.devRef .tc main_arg6) = (m ((c : Thread nD τ).loc main_arg6)) := (W6_of_ne m ρ c main_arg6 (by decide)).trans (arg6_5 m ρ c)
theorem arg7_6 : W6 m ρ c (Proc.devRef .tc main_arg7) = (m ((c : Thread nD τ).loc main_arg7)) := (W6_of_ne m ρ c main_arg7 (by decide)).trans (arg7_5 m ρ c)
theorem arg8_6 : W6 m ρ c (Proc.devRef .tc main_arg8) = (m ((c : Thread nD τ).loc main_arg8)) := (W6_of_ne m ρ c main_arg8 (by decide)).trans (arg8_5 m ρ c)

/-- The stretch after the first kernel writes none of these. -/
theorem out0_7 : W7 m ρ c (Proc.devRef .tc main_v64) = W6 m ρ c (Proc.devRef .tc main_v64) := by
  dsimp only [W7, hostOps1]
  after_results_simp <;> rfl
theorem src7 : W7 m ρ c (Proc.devRef .tc main_v1) = val_main_v1 (F := Ideal) (m ((c : Thread nD τ).loc main_arg1)) := by
  dsimp only [W7, hostOps1]
  after_results_simp
  exact src6 m ρ c
theorem dst7 : W7 m ρ c (Proc.devRef .tc main_v3) = val_main_v3 (F := Ideal) (m ((c : Thread nD τ).loc main_arg1)) := by
  dsimp only [W7, hostOps1]
  after_results_simp
  exact dst6 m ρ c
theorem nrm7 : W7 m ρ c (Proc.devRef .tc main_v34) = val_main_v34 (F := Ideal) (m ((c : Thread nD τ).loc main_arg1)) (m ((c : Thread nD τ).loc main_arg2)) := by
  dsimp only [W7, hostOps1]
  after_results_simp
  exact nrm6 m ρ c
theorem arg5_7 : W7 m ρ c (Proc.devRef .tc main_arg5) = (m ((c : Thread nD τ).loc main_arg5)) := by
  dsimp only [W7, hostOps1]
  after_results_simp
  exact arg5_6 m ρ c
theorem arg6_7 : W7 m ρ c (Proc.devRef .tc main_arg6) = (m ((c : Thread nD τ).loc main_arg6)) := by
  dsimp only [W7, hostOps1]
  after_results_simp
  exact arg6_6 m ρ c
theorem arg7_7 : W7 m ρ c (Proc.devRef .tc main_arg7) = (m ((c : Thread nD τ).loc main_arg7)) := by
  dsimp only [W7, hostOps1]
  after_results_simp
  exact arg7_6 m ρ c
theorem arg8_7 : W7 m ρ c (Proc.devRef .tc main_arg8) = (m ((c : Thread nD τ).loc main_arg8)) := by
  dsimp only [W7, hostOps1]
  after_results_simp
  exact arg8_6 m ρ c

set_option maxHeartbeats 4000000 in
/-- T1 of the second layer, once the first kernel's output is known to be the reference's first layer. -/
theorem t1_7 (h : W6 m ρ c (Proc.devRef .tc main_v64) = val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4))) :
    W7 m ρ c (Proc.devRef .tc main_v77) = val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  dsimp only [W7, hostOps1]
  after_results_simp
  rw [h, src6 m ρ c, dst6 m ρ c, nrm6 m ρ c]
  unfold val_main_v94 val_main_v93 val_main_v92 val_main_cst_16 val_main_v91 val_main_v90 val_main_v89 val_main_v88 val_main_v87 val_main_v86 val_main_v85 val_main_c_15 val_main_v84 val_main_v83 val_main_c_14 val_main_v82
  rfl

set_option maxHeartbeats 8000000 in
/-- T2 of the second layer. -/
theorem t2_7 (h : W6 m ρ c (Proc.devRef .tc main_v64) = val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4))) :
    W7 m ρ c (Proc.devRef .tc main_v93) = val_main_v114 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  dsimp only [W7, hostOps1]
  after_results_simp
  rw [h, src6 m ρ c, dst6 m ρ c, nrm6 m ρ c]
  unfold val_main_v114 val_main_v113 val_main_v112 val_main_cst_20 val_main_v111 val_main_v110 val_main_v109 val_main_cst_19 val_main_v108 val_main_v107 val_main_v106 val_main_v105 val_main_v104 val_main_v103 val_main_v102 val_main_c_18 val_main_v101 val_main_v100 val_main_c_17 val_main_v99 val_main_v94 val_main_v93 val_main_v92 val_main_cst_16 val_main_v91 val_main_v90 val_main_v89 val_main_v88 val_main_v87 val_main_v86 val_main_v85 val_main_c_15 val_main_v84 val_main_v83 val_main_c_14 val_main_v82
  rfl

/-! ## Through the second kernel and the stretch after it -/

theorem src8 : W8 m ρ c (Proc.devRef .tc main_v1) = val_main_v1 (F := Ideal) (m ((c : Thread nD τ).loc main_arg1)) :=
  (W8_of_ne m ρ c main_v1 (by decide)).trans (src7 m ρ c)
theorem dst8 : W8 m ρ c (Proc.devRef .tc main_v3) = val_main_v3 (F := Ideal) (m ((c : Thread nD τ).loc main_arg1)) :=
  (W8_of_ne m ρ c main_v3 (by decide)).trans (dst7 m ρ c)
theorem nrm8 : W8 m ρ c (Proc.devRef .tc main_v34) = val_main_v34 (F := Ideal) (m ((c : Thread nD τ).loc main_arg1)) (m ((c : Thread nD τ).loc main_arg2)) :=
  (W8_of_ne m ρ c main_v34 (by decide)).trans (nrm7 m ρ c)
theorem arg7_8 : W8 m ρ c (Proc.devRef .tc main_arg7) = (m ((c : Thread nD τ).loc main_arg7)) := (W8_of_ne m ρ c main_arg7 (by decide)).trans (arg7_7 m ρ c)
theorem arg8_8 : W8 m ρ c (Proc.devRef .tc main_arg8) = (m ((c : Thread nD τ).loc main_arg8)) := (W8_of_ne m ρ c main_arg8 (by decide)).trans (arg8_7 m ρ c)

theorem out1_9 : W9 m ρ c (Proc.devRef .tc main_v94) = W8 m ρ c (Proc.devRef .tc main_v94) := by
  dsimp only [W9, hostOps2]
  after_results_simp <;> rfl
theorem arg7_9 : W9 m ρ c (Proc.devRef .tc main_arg7) = (m ((c : Thread nD τ).loc main_arg7)) := by
  dsimp only [W9, hostOps2]
  after_results_simp
  exact arg7_8 m ρ c
theorem arg8_9 : W9 m ρ c (Proc.devRef .tc main_arg8) = (m ((c : Thread nD τ).loc main_arg8)) := by
  dsimp only [W9, hostOps2]
  after_results_simp
  exact arg8_8 m ρ c

set_option maxHeartbeats 4000000 in
/-- T1 of the third layer, once the second kernel's output is known to be the reference's second layer. -/
theorem t1_9 (h : W8 m ρ c (Proc.devRef .tc main_v94) = val_main_v122 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :
    W9 m ρ c (Proc.devRef .tc main_v107) = val_main_v138 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  dsimp only [W9, hostOps2]
  after_results_simp
  rw [h, src8 m ρ c, dst8 m ρ c, nrm8 m ρ c]
  unfold val_main_v138 val_main_v137 val_main_v136 val_main_cst_23 val_main_v135 val_main_v134 val_main_v133 val_main_v132 val_main_v131 val_main_v130 val_main_v129 val_main_c_22 val_main_v128 val_main_v127 val_main_c_21 val_main_v126
  rfl

set_option maxHeartbeats 8000000 in
/-- T2 of the third layer. -/
theorem t2_9 (h : W8 m ρ c (Proc.devRef .tc main_v94) = val_main_v122 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :
    W9 m ρ c (Proc.devRef .tc main_v123) = val_main_v158 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  dsimp only [W9, hostOps2]
  after_results_simp
  rw [h, src8 m ρ c, dst8 m ρ c, nrm8 m ρ c]
  unfold val_main_v158 val_main_v157 val_main_v156 val_main_cst_27 val_main_v155 val_main_v154 val_main_v153 val_main_cst_26 val_main_v152 val_main_v151 val_main_v150 val_main_v149 val_main_v148 val_main_v147 val_main_v146 val_main_c_25 val_main_v145 val_main_v144 val_main_c_24 val_main_v143 val_main_v138 val_main_v137 val_main_v136 val_main_cst_23 val_main_v135 val_main_v134 val_main_v133 val_main_v132 val_main_v131 val_main_v130 val_main_v129 val_main_c_22 val_main_v128 val_main_v127 val_main_c_21 val_main_v126
  rfl

end Cert.HostChain

end
-- ==== Proof.BlockProduct.lean ====
/-
  One block of a layer's kernel: a 2000 x 128 block of node features times a 128 x 128 weight matrix, accumulated into
  zero, read entry by entry as a row-by-column sum over the 128 features.  The operand indices of the product at output
  entry (p, q) and feature k are (p, k) on the left and (k, q) on the right.
-/
import proofs.«135729_j76433238000372_1_alg».proof.Proof.Gen.KernelIdeal
import Idealize.ShloMosaic.Lib.Pipeline.Value
import Idealize.ShloMosaic.Lib.ValueIdx
import Idealize.ShloMosaic.PureOps.Ideal.Laws

noncomputable section

namespace Cert.BlockProduct

open Cert.KernelIdeal Idealize.ShloMosaic Idealize.ShloMosaic.ValueIdx

/-- The two-axis zero offset, however it is spelt. -/
theorem hz2 : (![0, 0] : Fin 2 → Nat) = fun _ => 0 := funext fun a => by fin_cases a <;> rfl
/-- The one-axis zero offset. -/
theorem hz1 : (![0] : Fin 1 → Nat) = fun _ => 0 := funext fun a => by fin_cases a <;> rfl

/-- The left operand's row is the output's row. -/
theorem lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl

/-- The right operand's column is the output's column. -/
theorem rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Entry (p, q) of a 2000 x 128 block times a 128 x 128 matrix, accumulated into zero, is the sum over the 128
    features k of the block's (p, k) times the matrix's (k, q). -/
theorem mm_apply {φ₁ φ₂ : FTy} (l : FVec Ideal S2000x128 φ₁) (r : FVec Ideal S128x128 φ₂) (p : Fin 2000) (q : Fin 128) :
    matmul (F := Ideal) dot_S2000x128_S128x128_S2000x128_1_0_0_1_n_n none l r (constant S2000x128 .f32 0x00000000#32) (ix2 p q)
      = ∑ k : Fin 128, l (ix2 p k) * r (ix2 k q) := by
  show FloatOps.matmul dot_S2000x128_S128x128_S2000x128_1_0_0_1_n_n none l r (constant S2000x128 .f32 0x00000000#32) (ix2 p q) = _
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_row _ _
    | ⟨1, _⟩ => exact ((dot_S2000x128_S128x128_S2000x128_1_0_0_1_n_n.lhsIdx_val_of_single rfl _ _).trans hk))
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact ((dot_S2000x128_S128x128_S2000x128_1_0_0_1_n_n.rhsIdx_val_of_single rfl _ _).trans hk)
    | ⟨1, _⟩ => exact rhs_col _ _)
  rw [el, er]

end Cert.BlockProduct

end
-- ==== Proof.Layer0Blocks.lean ====
/-
  The first layer's kernel, block by block, computes the layer of the WHOLE arrays.

  The kernel runs at 25 grid points; point t stages rows 2000 t … 2000 t + 1999 of the three feature arrays, the whole
  weight stack and the whole bias, and writes back rows 2000 t … 2000 t + 1999 of the output.  Entry (p, q) of the
  block it computes is ((sum_k T0(r,k) W(0,k,q) + sum_k T1(r,k) W(1,k,q)) + sum_k T2(r,k) W(2,k,q)) + b(q), rectified,
  with r = 2000 t + p: the layer's entry (r, q), which depends on row r of each array only.  The 25 blocks cover the
  50000 rows (row r is in block r / 2000), so the output array ends as the layer of the arrays the kernel found.
  Everything is stated for ANY contents V of the buffers at the kernel's entry.
-/
import proofs.«135729_j76433238000372_1_alg».proof.Proof.Spec
import proofs.«135729_j76433238000372_1_alg».proof.Proof.BlockProduct
import proofs.«135729_j76433238000372_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Layer0Blocks

open Cert.KernelIdeal Cert.KernelIdeal.Gen Cert.BlockProduct Idealize.ShloMosaic Idealize.ShloMosaic.TcCoe Idealize.ShloMosaic.ValueIdx Idealize.SL.Sem

variable (V : (c : Dev nD) → (b : Ref sig .tc) → Buf (Elt Ideal) ((c : Thread nD τ).loc b))

/-! ## The arithmetic of one block -/

/-- The three loaded slices of the weight stack are its three matrices. -/
theorem slice_w0 (k q : Fin 128) : r0_1.idx (ix3 (0 : Fin 1) k q) = ix3 (0 : Fin 3) k q := by
  refine funext fun a => Fin.ext ?_
  match a with
  | ⟨0, _⟩ => rfl
  | ⟨1, _⟩ => show 0 + 1 * k.val = k.val; omega
  | ⟨2, _⟩ => show 0 + 1 * q.val = q.val; omega

theorem slice_w1 (k q : Fin 128) : r0_2.idx (ix3 (0 : Fin 1) k q) = ix3 (1 : Fin 3) k q := by
  refine funext fun a => Fin.ext ?_
  match a with
  | ⟨0, _⟩ => rfl
  | ⟨1, _⟩ => show 0 + 1 * k.val = k.val; omega
  | ⟨2, _⟩ => show 0 + 1 * q.val = q.val; omega

theorem slice_w2 (k q : Fin 128) : r0_3.idx (ix3 (0 : Fin 1) k q) = ix3 (2 : Fin 3) k q := by
  refine funext fun a => Fin.ext ?_
  match a with
  | ⟨0, _⟩ => rfl
  | ⟨1, _⟩ => show 0 + 1 * k.val = k.val; omega
  | ⟨2, _⟩ => show 0 + 1 * q.val = q.val; omega

/-- The body's arithmetic at entry (p, q) of its block. -/
theorem pay_apply (x0 x1 x2 : Vec Ideal S2000x128 .f32) (w0 w1 w2 : Vec Ideal S1x128x128 .f32) (b : Vec Ideal S128 .f32) (p : Fin 2000) (q : Fin 128) :
    k0_pay1 (F := Ideal) x0 x1 x2 w0 w1 w2 b (ix2 p q)
      = max ((((∑ k : Fin 128, x0 (ix2 p k) * w0 (ix3 (0 : Fin 1) k q)) + (∑ k : Fin 128, x1 (ix2 p k) * w1 (ix3 (0 : Fin 1) k q)))
          + (∑ k : Fin 128, x2 (ix2 p k) * w2 (ix3 (0 : Fin 1) k q))) + b (ix1 q)) (Ideal.ofBits .f32 0x00000000#32) := by
  unfold k0_pay1
  simp only [maximumf_apply, addf_apply, broadcast_apply, mm_apply, truncf_apply, shapeCast_self, shapeCast_1ab_ab_apply, shapeCast_a_1a_apply, broadcastTo_1b_ab_apply]
  rfl

/-- One block against the whole arrays: if row p of each block is row r of its array, entry (p, q) of the body's
    result is entry (r, q) of the layer. -/
theorem block0_eq (x0 x1 x2 : Vec Ideal S2000x128 .f32) (x3 : Vec Ideal S3x128x128 .f32) (x4 : Vec Ideal S128 .f32)
    (a0 a1 a2 : Cert.Spec.Feat) (w : Cert.Spec.Wts) (b : Cert.Spec.Row)
    (p : Fin 2000) (q : Fin 128) (r : Fin 50000)
    (h0 : ∀ k : Fin 128, x0 (ix2 p k) = a0 (ix2 r k)) (h1 : ∀ k : Fin 128, x1 (ix2 p k) = a1 (ix2 r k))
    (h2 : ∀ k : Fin 128, x2 (ix2 p k) = a2 (ix2 r k)) (h3 : ∀ y, x3 y = w y) (h4 : ∀ y, x4 y = b y) :
    k0_pay1 (F := Ideal) x0 x1 x2 (View.ld x3 r0_1) (View.ld x3 r0_2) (View.ld x3 r0_3) x4 (ix2 p q) = Cert.Spec.combineRelu a0 a1 a2 w b (ix2 r q) := by
  rw [pay_apply]
  simp only [slice_w0, slice_w1, slice_w2, h0, h1, h2, h3, h4]
  rfl

/-! ## From the blocks to the array -/

theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = 0 ∧ win0_3.index t (1 : Fin 3) = 0 ∧ win0_3.index t (2 : Fin 3) = 0
    ∧ win0_4.index t (0 : Fin 1) = 0
    ∧ win0_5.index t (0 : Fin 2) = t.val ∧ win0_5.index t (1 : Fin 2) = 0 :=
  (by decide +kernel : ∀ t : Fin grid0.N, _)

theorem read0_0 (c : Dev nD) (t : Fin cfg0.N) (p : Fin 2000) (k : Fin 128) (r : Fin 50000) (hr : r.val = t.val * 2000 + p.val) :
    iblk0 V c 0 t (ix2 p k) = V c (Pipeline.arrRef spec0 0) (ix2 r k) := by
  obtain ⟨e00, e01, e10, e11, e20, e21, e30, e31, e32, e40, e50, e51⟩ := idx_facts0 t
  show V c (Pipeline.arrRef spec0 0) (((cfg0.win 0).blk t).view.emb (ix2 p k)) = _
  refine congrArg (V c (Pipeline.arrRef spec0 0)) (funext fun a => Fin.ext ?_)
  match a with
  | ⟨0, _⟩ => show win0_0.index t (0 : Fin 2) * 2000 + 1 * p.val = r.val; omega
  | ⟨1, _⟩ => show win0_0.index t (1 : Fin 2) * 128 + 1 * k.val = k.val; omega

theorem read0_1 (c : Dev nD) (t : Fin cfg0.N) (p : Fin 2000) (k : Fin 128) (r : Fin 50000) (hr : r.val = t.val * 2000 + p.val) :
    iblk0 V c 1 t (ix2 p k) = V c (Pipeline.arrRef spec0 1) (ix2 r k) := by
  obtain ⟨e00, e01, e10, e11, e20, e21, e30, e31, e32, e40, e50, e51⟩ := idx_facts0 t
  show V c (Pipeline.arrRef spec0 1) (((cfg0.win 1).blk t).view.emb (ix2 p k)) = _
  refine congrArg (V c (Pipeline.arrRef spec0 1)) (funext fun a => Fin.ext ?_)
  match a with
  | ⟨0, _⟩ => show win0_1.index t (0 : Fin 2) * 2000 + 1 * p.val = r.val; omega
  | ⟨1, _⟩ => show win0_1.index t (1 : Fin 2) * 128 + 1 * k.val = k.val; omega

theorem read0_2 (c : Dev nD) (t : Fin cfg0.N) (p : Fin 2000) (k : Fin 128) (r : Fin 50000) (hr : r.val = t.val * 2000 + p.val) :
    iblk0 V c 2 t (ix2 p k) = V c (Pipeline.arrRef spec0 2) (ix2 r k) := by
  obtain ⟨e00, e01, e10, e11, e20, e21, e30, e31, e32, e40, e50, e51⟩ := idx_facts0 t
  show V c (Pipeline.arrRef spec0 2) (((cfg0.win 2).blk t).view.emb (ix2 p k)) = _
  refine congrArg (V c (Pipeline.arrRef spec0 2)) (funext fun a => Fin.ext ?_)
  match a with
  | ⟨0, _⟩ => show win0_2.index t (0 : Fin 2) * 2000 + 1 * p.val = r.val; omega
  | ⟨1, _⟩ => show win0_2.index t (1 : Fin 2) * 128 + 1 * k.val = k.val; omega

theorem read0_3 (c : Dev nD) (t : Fin cfg0.N) (y : S3x128x128.Idx) :
    iblk0 V c 3 t y = V c (Pipeline.arrRef spec0 3) y := by
  obtain ⟨e00, e01, e10, e11, e20, e21, e30, e31, e32, e40, e50, e51⟩ := idx_facts0 t
  show V c (Pipeline.arrRef spec0 3) (((cfg0.win 3).blk t).view.emb y) = _
  refine congrArg (V c (Pipeline.arrRef spec0 3)) (funext fun a => Fin.ext ?_)
  match a with
  | ⟨0, _⟩ => show win0_3.index t (0 : Fin 3) * 3 + 1 * (y 0).val = (y 0).val; omega
  | ⟨1, _⟩ => show win0_3.index t (1 : Fin 3) * 128 + 1 * (y 1).val = (y 1).val; omega
  | ⟨2, _⟩ => show win0_3.index t (2 : Fin 3) * 128 + 1 * (y 2).val = (y 2).val; omega

theorem read0_4 (c : Dev nD) (t : Fin cfg0.N) (y : S128.Idx) :
    iblk0 V c 4 t y = V c (Pipeline.arrRef spec0 4) y := by
  obtain ⟨e00, e01, e10, e11, e20, e21, e30, e31, e32, e40, e50, e51⟩ := idx_facts0 t
  show V c (Pipeline.arrRef spec0 4) (((cfg0.win 4).blk t).view.emb y) = _
  refine congrArg (V c (Pipeline.arrRef spec0 4)) (funext fun a => Fin.ext ?_)
  match a with
  | ⟨0, _⟩ => show win0_4.index t (0 : Fin 1) * 128 + 1 * (y 0).val = (y 0).val; omega

/-- Where point t's output block sits in the array: local row p is row t * 2000 + p. -/
theorem emb0_5 (t : Fin cfg0.N) (p : Fin 2000) (q : Fin 128) (r : Fin 50000) (hr : r.val = t.val * 2000 + p.val) :
    ((cfg0.win 5).blk t).view.emb (ix2 p q) = ix2 r q := by
  obtain ⟨e00, e01, e10, e11, e20, e21, e30, e31, e32, e40, e50, e51⟩ := idx_facts0 t
  funext a; apply Fin.ext
  match a with
  | ⟨0, _⟩ => show win0_5.index t (0 : Fin 2) * 2000 + 1 * p.val = r.val; omega
  | ⟨1, _⟩ => show win0_5.index t (1 : Fin 2) * 128 + 1 * q.val = q.val; omega

set_option maxHeartbeats 1000000 in
/-- What point t writes back is block t of the layer of the arrays the region finds. -/
theorem flushed0_eq (c : Dev nD) (t : Fin cfg0.N) :
    (dat0 (F := Ideal) V c).flushed 5 t = ((cfg0.win 5).blk t).view.read (Elt Ideal)
      (Cert.Spec.combineRelu (V c (Pipeline.arrRef spec0 0)) (V c (Pipeline.arrRef spec0 1)) (V c (Pipeline.arrRef spec0 2)) (V c (Pipeline.arrRef spec0 3)) (V c (Pipeline.arrRef spec0 4))) := by
  show (cfg0.win 5).cut (grid0.coords t) ((dat0 V c).after 5 t) = _
  rw [after0_5]
  unfold out0_5
  rw [View.canon_unit_zero hz2]
  simp only [View.ld_unit_zero (S := S2000x128) hz2, View.ld_unit_zero (S := S128) hz1]
  have ht : t.val < 25 := t.isLt
  funext j
  have hj0 : (j 0).val < 2000 := (j 0).isLt
  have hj1 : (j 1).val < 128 := (j 1).isLt
  have hr : t.val * 2000 + (j 0).val < 50000 := by omega
  have hjj : j = ix2 (⟨(j 0).val, hj0⟩ : Fin 2000) (⟨(j 1).val, hj1⟩ : Fin 128) := by
    funext a; apply Fin.ext
    match a with
    | ⟨0, _⟩ => rfl
    | ⟨1, _⟩ => rfl
  show k0_pay1 (iblk0 V c 0 t) (iblk0 V c 1 t) (iblk0 V c 2 t) (View.ld (iblk0 V c 3 t) r0_1) (View.ld (iblk0 V c 3 t) r0_2) (View.ld (iblk0 V c 3 t) r0_3) (iblk0 V c 4 t) j
      = Cert.Spec.combineRelu (V c (Pipeline.arrRef spec0 0)) (V c (Pipeline.arrRef spec0 1)) (V c (Pipeline.arrRef spec0 2)) (V c (Pipeline.arrRef spec0 3)) (V c (Pipeline.arrRef spec0 4)) (((cfg0.win 5).blk t).view.emb j)
  rw [hjj, emb0_5 t ⟨(j 0).val, hj0⟩ ⟨(j 1).val, hj1⟩ ⟨t.val * 2000 + (j 0).val, hr⟩ rfl]
  exact block0_eq (iblk0 V c 0 t) (iblk0 V c 1 t) (iblk0 V c 2 t) (iblk0 V c 3 t) (iblk0 V c 4 t)
    (V c (Pipeline.arrRef spec0 0)) (V c (Pipeline.arrRef spec0 1)) (V c (Pipeline.arrRef spec0 2)) (V c (Pipeline.arrRef spec0 3)) (V c (Pipeline.arrRef spec0 4))
    ⟨(j 0).val, hj0⟩ ⟨(j 1).val, hj1⟩ ⟨t.val * 2000 + (j 0).val, hr⟩
    (fun k => read0_0 V c t _ k _ rfl) (fun k => read0_1 V c t _ k _ rfl) (fun k => read0_2 V c t _ k _ rfl)
    (fun y => read0_3 V c t y) (fun y => read0_4 V c t y)

/-- An index of the array is in point t's block iff each coordinate is in the block's range on its axis. -/
theorem mem_blk0 (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v64).slice (win0_5.rect t)).set ↔ _
  rw [View.set_slice_whole, Rect.mem_set_unit]
  exact Iff.rfl

/-- Row r lies in the block of point r / 2000: the 25 blocks of 2000 rows cover the 50000 rows. -/
theorem cover0 (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : (i 0).val / 2000 < cfg0.N := by show _ < 25; omega
  obtain ⟨e00, e01, e10, e11, e20, e21, e30, e31, e32, e40, e50, e51⟩ := idx_facts0 ⟨(i 0).val / 2000, hN⟩
  refine ⟨⟨(i 0).val / 2000, hN⟩, flush0_5 _, ?_⟩
  rw [mem_blk0]
  intro a
  match a with
  | ⟨0, _⟩ =>
    show win0_5.index ⟨(i 0).val / 2000, hN⟩ (0 : Fin 2) * 2000 ≤ (i 0).val ∧ (i 0).val < win0_5.index ⟨(i 0).val / 2000, hN⟩ (0 : Fin 2) * 2000 + 2000
    rw [e50]; show (i 0).val / 2000 * 2000 ≤ (i 0).val ∧ (i 0).val < (i 0).val / 2000 * 2000 + 2000; omega
  | ⟨1, _⟩ =>
    show win0_5.index ⟨(i 0).val / 2000, hN⟩ (1 : Fin 2) * 128 ≤ (i 1).val ∧ (i 1).val < win0_5.index ⟨(i 0).val / 2000, hN⟩ (1 : Fin 2) * 128 + 128
    rw [e51]; omega

/-- The kernel leaves, in its output array, the layer of the arrays it found. -/
theorem array0 (c : Dev nD) :
    (dat0 (F := Ideal) V c).arrAt 5 cfg0.N
      = Cert.Spec.combineRelu (V c (Pipeline.arrRef spec0 0)) (V c (Pipeline.arrRef spec0 1)) (V c (Pipeline.arrRef spec0 2)) (V c (Pipeline.arrRef spec0 3)) (V c (Pipeline.arrRef spec0 4)) :=
  (dat0 (F := Ideal) V c).arrAt_eq_of_cover 5 _ (fun t _ => flushed0_eq V c t) cover0

end Cert.Layer0Blocks

end
-- ==== Proof.Layer1Blocks.lean ====
/-
  The second layer's kernel, block by block, computes the layer of the WHOLE arrays.

  The kernel runs at 25 grid points; point t stages rows 2000 t … 2000 t + 1999 of the three feature arrays, the whole
  weight stack and the whole bias, and writes back rows 2000 t … 2000 t + 1999 of the output.  Entry (p, q) of the
  block it computes is ((sum_k T0(r,k) W(0,k,q) + sum_k T1(r,k) W(1,k,q)) + sum_k T2(r,k) W(2,k,q)) + b(q), rectified,
  with r = 2000 t + p: the layer's entry (r, q), which depends on row r of each array only.  The 25 blocks cover the
  50000 rows (row r is in block r / 2000), so the output array ends as the layer of the arrays the kernel found.
  Everything is stated for ANY contents V of the buffers at the kernel's entry.
-/
import proofs.«135729_j76433238000372_1_alg».proof.Proof.Spec
import proofs.«135729_j76433238000372_1_alg».proof.Proof.BlockProduct
import proofs.«135729_j76433238000372_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Layer1Blocks

open Cert.KernelIdeal Cert.KernelIdeal.Gen Cert.BlockProduct Idealize.ShloMosaic Idealize.ShloMosaic.TcCoe Idealize.ShloMosaic.ValueIdx Idealize.SL.Sem

variable (V : (c : Dev nD) → (b : Ref sig .tc) → Buf (Elt Ideal) ((c : Thread nD τ).loc b))

/-! ## The arithmetic of one block -/

/-- The three loaded slices of the weight stack are its three matrices. -/
theorem slice_w0 (k q : Fin 128) : r1_1.idx (ix3 (0 : Fin 1) k q) = ix3 (0 : Fin 3) k q := by
  refine funext fun a => Fin.ext ?_
  match a with
  | ⟨0, _⟩ => rfl
  | ⟨1, _⟩ => show 0 + 1 * k.val = k.val; omega
  | ⟨2, _⟩ => show 0 + 1 * q.val = q.val; omega

theorem slice_w1 (k q : Fin 128) : r1_2.idx (ix3 (0 : Fin 1) k q) = ix3 (1 : Fin 3) k q := by
  refine funext fun a => Fin.ext ?_
  match a with
  | ⟨0, _⟩ => rfl
  | ⟨1, _⟩ => show 0 + 1 * k.val = k.val; omega
  | ⟨2, _⟩ => show 0 + 1 * q.val = q.val; omega

theorem slice_w2 (k q : Fin 128) : r1_3.idx (ix3 (0 : Fin 1) k q) = ix3 (2 : Fin 3) k q := by
  refine funext fun a => Fin.ext ?_
  match a with
  | ⟨0, _⟩ => rfl
  | ⟨1, _⟩ => show 0 + 1 * k.val = k.val; omega
  | ⟨2, _⟩ => show 0 + 1 * q.val = q.val; omega

/-- The body's arithmetic at entry (p, q) of its block. -/
theorem pay_apply (x0 x1 x2 : Vec Ideal S2000x128 .f32) (w0 w1 w2 : Vec Ideal S1x128x128 .f32) (b : Vec Ideal S128 .f32) (p : Fin 2000) (q : Fin 128) :
    k1_pay1 (F := Ideal) x0 x1 x2 w0 w1 w2 b (ix2 p q)
      = max ((((∑ k : Fin 128, x0 (ix2 p k) * w0 (ix3 (0 : Fin 1) k q)) + (∑ k : Fin 128, x1 (ix2 p k) * w1 (ix3 (0 : Fin 1) k q)))
          + (∑ k : Fin 128, x2 (ix2 p k) * w2 (ix3 (0 : Fin 1) k q))) + b (ix1 q)) (Ideal.ofBits .f32 0x00000000#32) := by
  unfold k1_pay1
  simp only [maximumf_apply, addf_apply, broadcast_apply, mm_apply, truncf_apply, shapeCast_self, shapeCast_1ab_ab_apply, shapeCast_a_1a_apply, broadcastTo_1b_ab_apply]
  rfl

/-- One block against the whole arrays: if row p of each block is row r of its array, entry (p, q) of the body's
    result is entry (r, q) of the layer. -/
theorem block1_eq (x0 x1 x2 : Vec Ideal S2000x128 .f32) (x3 : Vec Ideal S3x128x128 .f32) (x4 : Vec Ideal S128 .f32)
    (a0 a1 a2 : Cert.Spec.Feat) (w : Cert.Spec.Wts) (b : Cert.Spec.Row)
    (p : Fin 2000) (q : Fin 128) (r : Fin 50000)
    (h0 : ∀ k : Fin 128, x0 (ix2 p k) = a0 (ix2 r k)) (h1 : ∀ k : Fin 128, x1 (ix2 p k) = a1 (ix2 r k))
    (h2 : ∀ k : Fin 128, x2 (ix2 p k) = a2 (ix2 r k)) (h3 : ∀ y, x3 y = w y) (h4 : ∀ y, x4 y = b y) :
    k1_pay1 (F := Ideal) x0 x1 x2 (View.ld x3 r1_1) (View.ld x3 r1_2) (View.ld x3 r1_3) x4 (ix2 p q) = Cert.Spec.combineRelu a0 a1 a2 w b (ix2 r q) := by
  rw [pay_apply]
  simp only [slice_w0, slice_w1, slice_w2, h0, h1, h2, h3, h4]
  rfl

/-! ## From the blocks to the array -/

theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 3) = 0 ∧ win1_3.index t (1 : Fin 3) = 0 ∧ win1_3.index t (2 : Fin 3) = 0
    ∧ win1_4.index t (0 : Fin 1) = 0
    ∧ win1_5.index t (0 : Fin 2) = t.val ∧ win1_5.index t (1 : Fin 2) = 0 :=
  (by decide +kernel : ∀ t : Fin grid1.N, _)

theorem read1_0 (c : Dev nD) (t : Fin cfg1.N) (p : Fin 2000) (k : Fin 128) (r : Fin 50000) (hr : r.val = t.val * 2000 + p.val) :
    iblk1 V c 0 t (ix2 p k) = V c (Pipeline.arrRef spec1 0) (ix2 r k) := by
  obtain ⟨e00, e01, e10, e11, e20, e21, e30, e31, e32, e40, e50, e51⟩ := idx_facts1 t
  show V c (Pipeline.arrRef spec1 0) (((cfg1.win 0).blk t).view.emb (ix2 p k)) = _
  refine congrArg (V c (Pipeline.arrRef spec1 0)) (funext fun a => Fin.ext ?_)
  match a with
  | ⟨0, _⟩ => show win1_0.index t (0 : Fin 2) * 2000 + 1 * p.val = r.val; omega
  | ⟨1, _⟩ => show win1_0.index t (1 : Fin 2) * 128 + 1 * k.val = k.val; omega

theorem read1_1 (c : Dev nD) (t : Fin cfg1.N) (p : Fin 2000) (k : Fin 128) (r : Fin 50000) (hr : r.val = t.val * 2000 + p.val) :
    iblk1 V c 1 t (ix2 p k) = V c (Pipeline.arrRef spec1 1) (ix2 r k) := by
  obtain ⟨e00, e01, e10, e11, e20, e21, e30, e31, e32, e40, e50, e51⟩ := idx_facts1 t
  show V c (Pipeline.arrRef spec1 1) (((cfg1.win 1).blk t).view.emb (ix2 p k)) = _
  refine congrArg (V c (Pipeline.arrRef spec1 1)) (funext fun a => Fin.ext ?_)
  match a with
  | ⟨0, _⟩ => show win1_1.index t (0 : Fin 2) * 2000 + 1 * p.val = r.val; omega
  | ⟨1, _⟩ => show win1_1.index t (1 : Fin 2) * 128 + 1 * k.val = k.val; omega

theorem read1_2 (c : Dev nD) (t : Fin cfg1.N) (p : Fin 2000) (k : Fin 128) (r : Fin 50000) (hr : r.val = t.val * 2000 + p.val) :
    iblk1 V c 2 t (ix2 p k) = V c (Pipeline.arrRef spec1 2) (ix2 r k) := by
  obtain ⟨e00, e01, e10, e11, e20, e21, e30, e31, e32, e40, e50, e51⟩ := idx_facts1 t
  show V c (Pipeline.arrRef spec1 2) (((cfg1.win 2).blk t).view.emb (ix2 p k)) = _
  refine congrArg (V c (Pipeline.arrRef spec1 2)) (funext fun a => Fin.ext ?_)
  match a with
  | ⟨0, _⟩ => show win1_2.index t (0 : Fin 2) * 2000 + 1 * p.val = r.val; omega
  | ⟨1, _⟩ => show win1_2.index t (1 : Fin 2) * 128 + 1 * k.val = k.val; omega

theorem read1_3 (c : Dev nD) (t : Fin cfg1.N) (y : S3x128x128.Idx) :
    iblk1 V c 3 t y = V c (Pipeline.arrRef spec1 3) y := by
  obtain ⟨e00, e01, e10, e11, e20, e21, e30, e31, e32, e40, e50, e51⟩ := idx_facts1 t
  show V c (Pipeline.arrRef spec1 3) (((cfg1.win 3).blk t).view.emb y) = _
  refine congrArg (V c (Pipeline.arrRef spec1 3)) (funext fun a => Fin.ext ?_)
  match a with
  | ⟨0, _⟩ => show win1_3.index t (0 : Fin 3) * 3 + 1 * (y 0).val = (y 0).val; omega
  | ⟨1, _⟩ => show win1_3.index t (1 : Fin 3) * 128 + 1 * (y 1).val = (y 1).val; omega
  | ⟨2, _⟩ => show win1_3.index t (2 : Fin 3) * 128 + 1 * (y 2).val = (y 2).val; omega

theorem read1_4 (c : Dev nD) (t : Fin cfg1.N) (y : S128.Idx) :
    iblk1 V c 4 t y = V c (Pipeline.arrRef spec1 4) y := by
  obtain ⟨e00, e01, e10, e11, e20, e21, e30, e31, e32, e40, e50, e51⟩ := idx_facts1 t
  show V c (Pipeline.arrRef spec1 4) (((cfg1.win 4).blk t).view.emb y) = _
  refine congrArg (V c (Pipeline.arrRef spec1 4)) (funext fun a => Fin.ext ?_)
  match a with
  | ⟨0, _⟩ => show win1_4.index t (0 : Fin 1) * 128 + 1 * (y 0).val = (y 0).val; omega

/-- Where point t's output block sits in the array: local row p is row t * 2000 + p. -/
theorem emb1_5 (t : Fin cfg1.N) (p : Fin 2000) (q : Fin 128) (r : Fin 50000) (hr : r.val = t.val * 2000 + p.val) :
    ((cfg1.win 5).blk t).view.emb (ix2 p q) = ix2 r q := by
  obtain ⟨e00, e01, e10, e11, e20, e21, e30, e31, e32, e40, e50, e51⟩ := idx_facts1 t
  funext a; apply Fin.ext
  match a with
  | ⟨0, _⟩ => show win1_5.index t (0 : Fin 2) * 2000 + 1 * p.val = r.val; omega
  | ⟨1, _⟩ => show win1_5.index t (1 : Fin 2) * 128 + 1 * q.val = q.val; omega

set_option maxHeartbeats 1000000 in
/-- What point t writes back is block t of the layer of the arrays the region finds. -/
theorem flushed1_eq (c : Dev nD) (t : Fin cfg1.N) :
    (dat1 (F := Ideal) V c).flushed 5 t = ((cfg1.win 5).blk t).view.read (Elt Ideal)
      (Cert.Spec.combineRelu (V c (Pipeline.arrRef spec1 0)) (V c (Pipeline.arrRef spec1 1)) (V c (Pipeline.arrRef spec1 2)) (V c (Pipeline.arrRef spec1 3)) (V c (Pipeline.arrRef spec1 4))) := by
  show (cfg1.win 5).cut (grid1.coords t) ((dat1 V c).after 5 t) = _
  rw [after1_5]
  unfold out1_5
  rw [View.canon_unit_zero hz2]
  simp only [View.ld_unit_zero (S := S2000x128) hz2, View.ld_unit_zero (S := S128) hz1]
  have ht : t.val < 25 := t.isLt
  funext j
  have hj0 : (j 0).val < 2000 := (j 0).isLt
  have hj1 : (j 1).val < 128 := (j 1).isLt
  have hr : t.val * 2000 + (j 0).val < 50000 := by omega
  have hjj : j = ix2 (⟨(j 0).val, hj0⟩ : Fin 2000) (⟨(j 1).val, hj1⟩ : Fin 128) := by
    funext a; apply Fin.ext
    match a with
    | ⟨0, _⟩ => rfl
    | ⟨1, _⟩ => rfl
  show k1_pay1 (iblk1 V c 0 t) (iblk1 V c 1 t) (iblk1 V c 2 t) (View.ld (iblk1 V c 3 t) r1_1) (View.ld (iblk1 V c 3 t) r1_2) (View.ld (iblk1 V c 3 t) r1_3) (iblk1 V c 4 t) j
      = Cert.Spec.combineRelu (V c (Pipeline.arrRef spec1 0)) (V c (Pipeline.arrRef spec1 1)) (V c (Pipeline.arrRef spec1 2)) (V c (Pipeline.arrRef spec1 3)) (V c (Pipeline.arrRef spec1 4)) (((cfg1.win 5).blk t).view.emb j)
  rw [hjj, emb1_5 t ⟨(j 0).val, hj0⟩ ⟨(j 1).val, hj1⟩ ⟨t.val * 2000 + (j 0).val, hr⟩ rfl]
  exact block1_eq (iblk1 V c 0 t) (iblk1 V c 1 t) (iblk1 V c 2 t) (iblk1 V c 3 t) (iblk1 V c 4 t)
    (V c (Pipeline.arrRef spec1 0)) (V c (Pipeline.arrRef spec1 1)) (V c (Pipeline.arrRef spec1 2)) (V c (Pipeline.arrRef spec1 3)) (V c (Pipeline.arrRef spec1 4))
    ⟨(j 0).val, hj0⟩ ⟨(j 1).val, hj1⟩ ⟨t.val * 2000 + (j 0).val, hr⟩
    (fun k => read1_0 V c t _ k _ rfl) (fun k => read1_1 V c t _ k _ rfl) (fun k => read1_2 V c t _ k _ rfl)
    (fun y => read1_3 V c t y) (fun y => read1_4 V c t y)

/-- An index of the array is in point t's block iff each coordinate is in the block's range on its axis. -/
theorem mem_blk1 (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v94).slice (win1_5.rect t)).set ↔ _
  rw [View.set_slice_whole, Rect.mem_set_unit]
  exact Iff.rfl

/-- Row r lies in the block of point r / 2000: the 25 blocks of 2000 rows cover the 50000 rows. -/
theorem cover1 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : (i 0).val / 2000 < cfg1.N := by show _ < 25; omega
  obtain ⟨e00, e01, e10, e11, e20, e21, e30, e31, e32, e40, e50, e51⟩ := idx_facts1 ⟨(i 0).val / 2000, hN⟩
  refine ⟨⟨(i 0).val / 2000, hN⟩, flush1_5 _, ?_⟩
  rw [mem_blk1]
  intro a
  match a with
  | ⟨0, _⟩ =>
    show win1_5.index ⟨(i 0).val / 2000, hN⟩ (0 : Fin 2) * 2000 ≤ (i 0).val ∧ (i 0).val < win1_5.index ⟨(i 0).val / 2000, hN⟩ (0 : Fin 2) * 2000 + 2000
    rw [e50]; show (i 0).val / 2000 * 2000 ≤ (i 0).val ∧ (i 0).val < (i 0).val / 2000 * 2000 + 2000; omega
  | ⟨1, _⟩ =>
    show win1_5.index ⟨(i 0).val / 2000, hN⟩ (1 : Fin 2) * 128 ≤ (i 1).val ∧ (i 1).val < win1_5.index ⟨(i 0).val / 2000, hN⟩ (1 : Fin 2) * 128 + 128
    rw [e51]; omega

/-- The kernel leaves, in its output array, the layer of the arrays it found. -/
theorem array1 (c : Dev nD) :
    (dat1 (F := Ideal) V c).arrAt 5 cfg1.N
      = Cert.Spec.combineRelu (V c (Pipeline.arrRef spec1 0)) (V c (Pipeline.arrRef spec1 1)) (V c (Pipeline.arrRef spec1 2)) (V c (Pipeline.arrRef spec1 3)) (V c (Pipeline.arrRef spec1 4)) :=
  (dat1 (F := Ideal) V c).arrAt_eq_of_cover 5 _ (fun t _ => flushed1_eq V c t) cover1

end Cert.Layer1Blocks

end
-- ==== Proof.Layer2Blocks.lean ====
/-
  The third layer's kernel, block by block, computes the layer of the WHOLE arrays.

  The kernel runs at 25 grid points; point t stages rows 2000 t … 2000 t + 1999 of the three feature arrays, the whole
  weight stack and the whole bias, and writes back rows 2000 t … 2000 t + 1999 of the output.  Entry (p, q) of the
  block it computes is ((sum_k T0(r,k) W(0,k,q) + sum_k T1(r,k) W(1,k,q)) + sum_k T2(r,k) W(2,k,q)) + b(q)
  with r = 2000 t + p: the layer's entry (r, q), which depends on row r of each array only.  The 25 blocks cover the
  50000 rows (row r is in block r / 2000), so the output array ends as the layer of the arrays the kernel found.
  Everything is stated for ANY contents V of the buffers at the kernel's entry.
-/
import proofs.«135729_j76433238000372_1_alg».proof.Proof.Spec
import proofs.«135729_j76433238000372_1_alg».proof.Proof.BlockProduct
import proofs.«135729_j76433238000372_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Layer2Blocks

open Cert.KernelIdeal Cert.KernelIdeal.Gen Cert.BlockProduct Idealize.ShloMosaic Idealize.ShloMosaic.TcCoe Idealize.ShloMosaic.ValueIdx Idealize.SL.Sem

variable (V : (c : Dev nD) → (b : Ref sig .tc) → Buf (Elt Ideal) ((c : Thread nD τ).loc b))

/-! ## The arithmetic of one block -/

/-- The three loaded slices of the weight stack are its three matrices. -/
theorem slice_w0 (k q : Fin 128) : r2_1.idx (ix3 (0 : Fin 1) k q) = ix3 (0 : Fin 3) k q := by
  refine funext fun a => Fin.ext ?_
  match a with
  | ⟨0, _⟩ => rfl
  | ⟨1, _⟩ => show 0 + 1 * k.val = k.val; omega
  | ⟨2, _⟩ => show 0 + 1 * q.val = q.val; omega

theorem slice_w1 (k q : Fin 128) : r2_2.idx (ix3 (0 : Fin 1) k q) = ix3 (1 : Fin 3) k q := by
  refine funext fun a => Fin.ext ?_
  match a with
  | ⟨0, _⟩ => rfl
  | ⟨1, _⟩ => show 0 + 1 * k.val = k.val; omega
  | ⟨2, _⟩ => show 0 + 1 * q.val = q.val; omega

theorem slice_w2 (k q : Fin 128) : r2_3.idx (ix3 (0 : Fin 1) k q) = ix3 (2 : Fin 3) k q := by
  refine funext fun a => Fin.ext ?_
  match a with
  | ⟨0, _⟩ => rfl
  | ⟨1, _⟩ => show 0 + 1 * k.val = k.val; omega
  | ⟨2, _⟩ => show 0 + 1 * q.val = q.val; omega

/-- The body's arithmetic at entry (p, q) of its block. -/
theorem pay_apply (x0 x1 x2 : Vec Ideal S2000x128 .f32) (w0 w1 w2 : Vec Ideal S1x128x128 .f32) (b : Vec Ideal S128 .f32) (p : Fin 2000) (q : Fin 128) :
    k2_pay1 (F := Ideal) x0 x1 x2 w0 w1 w2 b (ix2 p q)
      = (((∑ k : Fin 128, x0 (ix2 p k) * w0 (ix3 (0 : Fin 1) k q)) + (∑ k : Fin 128, x1 (ix2 p k) * w1 (ix3 (0 : Fin 1) k q)))
          + (∑ k : Fin 128, x2 (ix2 p k) * w2 (ix3 (0 : Fin 1) k q))) + b (ix1 q) := by
  unfold k2_pay1
  simp only [maximumf_apply, addf_apply, broadcast_apply, mm_apply, truncf_apply, shapeCast_self, shapeCast_1ab_ab_apply, shapeCast_a_1a_apply, broadcastTo_1b_ab_apply]
  try rfl

/-- One block against the whole arrays: if row p of each block is row r of its array, entry (p, q) of the body's
    result is entry (r, q) of the layer. -/
theorem block2_eq (x0 x1 x2 : Vec Ideal S2000x128 .f32) (x3 : Vec Ideal S3x128x128 .f32) (x4 : Vec Ideal S128 .f32)
    (a0 a1 a2 : Cert.Spec.Feat) (w : Cert.Spec.Wts) (b : Cert.Spec.Row)
    (p : Fin 2000) (q : Fin 128) (r : Fin 50000)
    (h0 : ∀ k : Fin 128, x0 (ix2 p k) = a0 (ix2 r k)) (h1 : ∀ k : Fin 128, x1 (ix2 p k) = a1 (ix2 r k))
    (h2 : ∀ k : Fin 128, x2 (ix2 p k) = a2 (ix2 r k)) (h3 : ∀ y, x3 y = w y) (h4 : ∀ y, x4 y = b y) :
    k2_pay1 (F := Ideal) x0 x1 x2 (View.ld x3 r2_1) (View.ld x3 r2_2) (View.ld x3 r2_3) x4 (ix2 p q) = Cert.Spec.combine a0 a1 a2 w b (ix2 r q) := by
  rw [pay_apply]
  simp only [slice_w0, slice_w1, slice_w2, h0, h1, h2, h3, h4]
  rfl

/-! ## From the blocks to the array -/

theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 3) = 0 ∧ win2_3.index t (1 : Fin 3) = 0 ∧ win2_3.index t (2 : Fin 3) = 0
    ∧ win2_4.index t (0 : Fin 1) = 0
    ∧ win2_5.index t (0 : Fin 2) = t.val ∧ win2_5.index t (1 : Fin 2) = 0 :=
  (by decide +kernel : ∀ t : Fin grid2.N, _)

theorem read2_0 (c : Dev nD) (t : Fin cfg2.N) (p : Fin 2000) (k : Fin 128) (r : Fin 50000) (hr : r.val = t.val * 2000 + p.val) :
    iblk2 V c 0 t (ix2 p k) = V c (Pipeline.arrRef spec2 0) (ix2 r k) := by
  obtain ⟨e00, e01, e10, e11, e20, e21, e30, e31, e32, e40, e50, e51⟩ := idx_facts2 t
  show V c (Pipeline.arrRef spec2 0) (((cfg2.win 0).blk t).view.emb (ix2 p k)) = _
  refine congrArg (V c (Pipeline.arrRef spec2 0)) (funext fun a => Fin.ext ?_)
  match a with
  | ⟨0, _⟩ => show win2_0.index t (0 : Fin 2) * 2000 + 1 * p.val = r.val; omega
  | ⟨1, _⟩ => show win2_0.index t (1 : Fin 2) * 128 + 1 * k.val = k.val; omega

theorem read2_1 (c : Dev nD) (t : Fin cfg2.N) (p : Fin 2000) (k : Fin 128) (r : Fin 50000) (hr : r.val = t.val * 2000 + p.val) :
    iblk2 V c 1 t (ix2 p k) = V c (Pipeline.arrRef spec2 1) (ix2 r k) := by
  obtain ⟨e00, e01, e10, e11, e20, e21, e30, e31, e32, e40, e50, e51⟩ := idx_facts2 t
  show V c (Pipeline.arrRef spec2 1) (((cfg2.win 1).blk t).view.emb (ix2 p k)) = _
  refine congrArg (V c (Pipeline.arrRef spec2 1)) (funext fun a => Fin.ext ?_)
  match a with
  | ⟨0, _⟩ => show win2_1.index t (0 : Fin 2) * 2000 + 1 * p.val = r.val; omega
  | ⟨1, _⟩ => show win2_1.index t (1 : Fin 2) * 128 + 1 * k.val = k.val; omega

theorem read2_2 (c : Dev nD) (t : Fin cfg2.N) (p : Fin 2000) (k : Fin 128) (r : Fin 50000) (hr : r.val = t.val * 2000 + p.val) :
    iblk2 V c 2 t (ix2 p k) = V c (Pipeline.arrRef spec2 2) (ix2 r k) := by
  obtain ⟨e00, e01, e10, e11, e20, e21, e30, e31, e32, e40, e50, e51⟩ := idx_facts2 t
  show V c (Pipeline.arrRef spec2 2) (((cfg2.win 2).blk t).view.emb (ix2 p k)) = _
  refine congrArg (V c (Pipeline.arrRef spec2 2)) (funext fun a => Fin.ext ?_)
  match a with
  | ⟨0, _⟩ => show win2_2.index t (0 : Fin 2) * 2000 + 1 * p.val = r.val; omega
  | ⟨1, _⟩ => show win2_2.index t (1 : Fin 2) * 128 + 1 * k.val = k.val; omega

theorem read2_3 (c : Dev nD) (t : Fin cfg2.N) (y : S3x128x128.Idx) :
    iblk2 V c 3 t y = V c (Pipeline.arrRef spec2 3) y := by
  obtain ⟨e00, e01, e10, e11, e20, e21, e30, e31, e32, e40, e50, e51⟩ := idx_facts2 t
  show V c (Pipeline.arrRef spec2 3) (((cfg2.win 3).blk t).view.emb y) = _
  refine congrArg (V c (Pipeline.arrRef spec2 3)) (funext fun a => Fin.ext ?_)
  match a with
  | ⟨0, _⟩ => show win2_3.index t (0 : Fin 3) * 3 + 1 * (y 0).val = (y 0).val; omega
  | ⟨1, _⟩ => show win2_3.index t (1 : Fin 3) * 128 + 1 * (y 1).val = (y 1).val; omega
  | ⟨2, _⟩ => show win2_3.index t (2 : Fin 3) * 128 + 1 * (y 2).val = (y 2).val; omega

theorem read2_4 (c : Dev nD) (t : Fin cfg2.N) (y : S128.Idx) :
    iblk2 V c 4 t y = V c (Pipeline.arrRef spec2 4) y := by
  obtain ⟨e00, e01, e10, e11, e20, e21, e30, e31, e32, e40, e50, e51⟩ := idx_facts2 t
  show V c (Pipeline.arrRef spec2 4) (((cfg2.win 4).blk t).view.emb y) = _
  refine congrArg (V c (Pipeline.arrRef spec2 4)) (funext fun a => Fin.ext ?_)
  match a with
  | ⟨0, _⟩ => show win2_4.index t (0 : Fin 1) * 128 + 1 * (y 0).val = (y 0).val; omega

/-- Where point t's output block sits in the array: local row p is row t * 2000 + p. -/
theorem emb2_5 (t : Fin cfg2.N) (p : Fin 2000) (q : Fin 128) (r : Fin 50000) (hr : r.val = t.val * 2000 + p.val) :
    ((cfg2.win 5).blk t).view.emb (ix2 p q) = ix2 r q := by
  obtain ⟨e00, e01, e10, e11, e20, e21, e30, e31, e32, e40, e50, e51⟩ := idx_facts2 t
  funext a; apply Fin.ext
  match a with
  | ⟨0, _⟩ => show win2_5.index t (0 : Fin 2) * 2000 + 1 * p.val = r.val; omega
  | ⟨1, _⟩ => show win2_5.index t (1 : Fin 2) * 128 + 1 * q.val = q.val; omega

set_option maxHeartbeats 1000000 in
/-- What point t writes back is block t of the layer of the arrays the region finds. -/
theorem flushed2_eq (c : Dev nD) (t : Fin cfg2.N) :
    (dat2 (F := Ideal) V c).flushed 5 t = ((cfg2.win 5).blk t).view.read (Elt Ideal)
      (Cert.Spec.combine (V c (Pipeline.arrRef spec2 0)) (V c (Pipeline.arrRef spec2 1)) (V c (Pipeline.arrRef spec2 2)) (V c (Pipeline.arrRef spec2 3)) (V c (Pipeline.arrRef spec2 4))) := by
  show (cfg2.win 5).cut (grid2.coords t) ((dat2 V c).after 5 t) = _
  rw [after2_5]
  unfold out2_5
  rw [View.canon_unit_zero hz2]
  simp only [View.ld_unit_zero (S := S2000x128) hz2, View.ld_unit_zero (S := S128) hz1]
  have ht : t.val < 25 := t.isLt
  funext j
  have hj0 : (j 0).val < 2000 := (j 0).isLt
  have hj1 : (j 1).val < 128 := (j 1).isLt
  have hr : t.val * 2000 + (j 0).val < 50000 := by omega
  have hjj : j = ix2 (⟨(j 0).val, hj0⟩ : Fin 2000) (⟨(j 1).val, hj1⟩ : Fin 128) := by
    funext a; apply Fin.ext
    match a with
    | ⟨0, _⟩ => rfl
    | ⟨1, _⟩ => rfl
  show k2_pay1 (iblk2 V c 0 t) (iblk2 V c 1 t) (iblk2 V c 2 t) (View.ld (iblk2 V c 3 t) r2_1) (View.ld (iblk2 V c 3 t) r2_2) (View.ld (iblk2 V c 3 t) r2_3) (iblk2 V c 4 t) j
      = Cert.Spec.combine (V c (Pipeline.arrRef spec2 0)) (V c (Pipeline.arrRef spec2 1)) (V c (Pipeline.arrRef spec2 2)) (V c (Pipeline.arrRef spec2 3)) (V c (Pipeline.arrRef spec2 4)) (((cfg2.win 5).blk t).view.emb j)
  rw [hjj, emb2_5 t ⟨(j 0).val, hj0⟩ ⟨(j 1).val, hj1⟩ ⟨t.val * 2000 + (j 0).val, hr⟩ rfl]
  exact block2_eq (iblk2 V c 0 t) (iblk2 V c 1 t) (iblk2 V c 2 t) (iblk2 V c 3 t) (iblk2 V c 4 t)
    (V c (Pipeline.arrRef spec2 0)) (V c (Pipeline.arrRef spec2 1)) (V c (Pipeline.arrRef spec2 2)) (V c (Pipeline.arrRef spec2 3)) (V c (Pipeline.arrRef spec2 4))
    ⟨(j 0).val, hj0⟩ ⟨(j 1).val, hj1⟩ ⟨t.val * 2000 + (j 0).val, hr⟩
    (fun k => read2_0 V c t _ k _ rfl) (fun k => read2_1 V c t _ k _ rfl) (fun k => read2_2 V c t _ k _ rfl)
    (fun y => read2_3 V c t y) (fun y => read2_4 V c t y)

/-- An index of the array is in point t's block iff each coordinate is in the block's range on its axis. -/
theorem mem_blk2 (t : Fin cfg2.N) (i : S50000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v124).slice (win2_5.rect t)).set ↔ _
  rw [View.set_slice_whole, Rect.mem_set_unit]
  exact Iff.rfl

/-- Row r lies in the block of point r / 2000: the 25 blocks of 2000 rows cover the 50000 rows. -/
theorem cover2 (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  have hN : (i 0).val / 2000 < cfg2.N := by show _ < 25; omega
  obtain ⟨e00, e01, e10, e11, e20, e21, e30, e31, e32, e40, e50, e51⟩ := idx_facts2 ⟨(i 0).val / 2000, hN⟩
  refine ⟨⟨(i 0).val / 2000, hN⟩, flush2_5 _, ?_⟩
  rw [mem_blk2]
  intro a
  match a with
  | ⟨0, _⟩ =>
    show win2_5.index ⟨(i 0).val / 2000, hN⟩ (0 : Fin 2) * 2000 ≤ (i 0).val ∧ (i 0).val < win2_5.index ⟨(i 0).val / 2000, hN⟩ (0 : Fin 2) * 2000 + 2000
    rw [e50]; show (i 0).val / 2000 * 2000 ≤ (i 0).val ∧ (i 0).val < (i 0).val / 2000 * 2000 + 2000; omega
  | ⟨1, _⟩ =>
    show win2_5.index ⟨(i 0).val / 2000, hN⟩ (1 : Fin 2) * 128 ≤ (i 1).val ∧ (i 1).val < win2_5.index ⟨(i 0).val / 2000, hN⟩ (1 : Fin 2) * 128 + 128
    rw [e51]; omega

/-- The kernel leaves, in its output array, the layer of the arrays it found. -/
theorem array2 (c : Dev nD) :
    (dat2 (F := Ideal) V c).arrAt 5 cfg2.N
      = Cert.Spec.combine (V c (Pipeline.arrRef spec2 0)) (V c (Pipeline.arrRef spec2 1)) (V c (Pipeline.arrRef spec2 2)) (V c (Pipeline.arrRef spec2 3)) (V c (Pipeline.arrRef spec2 4)) :=
  (dat2 (F := Ideal) V c).arrAt_eq_of_cover 5 _ (fun t _ => flushed2_eq V c t) cover2

end Cert.Layer2Blocks

end
-- ==== Proof.HeadBlocks.lean ====
/-
  What the head's tiled computation leaves in its output array.

  The head maps each node's 128 features to one number: a linear map with bias, an affine normalisation by running
  statistics, rectification, a dot product with a weight column, a bias and the logistic function (Spec.lean,
  `Cert.Spec.head`). The tiled program computes it on 25 blocks of 2000 rows: at grid point `t` it reads rows
  `2000 t … 2000 t + 1999` of the feature array and the whole of every parameter, and writes the same rows of the
  50000 x 1 output array.

  Three steps. (1) One block: row `p` of what the body stores is, sum by sum and in the same order of the 128
  features, the head's formula applied to row `p` of the block it loaded (`pay_at`, `point_eq`); the matrix product
  into a zero accumulator is the plain sum of products, the row sum is the plain sum of the row, and every change of
  layout only renames indices. (2) One grid point: the block loaded at point `t` is rows `2000 t + p` of the feature
  array, each parameter's block is the parameter, and the block written back sits at rows `2000 t + p` of the output,
  so what point `t` writes back is block `t` of the head of the arrays (`flushed_eq`). (3) All points: the 25 output
  blocks cover the 50000 rows, row `r` lying in block `r / 2000`, so the output array ends as the head of the arrays
  the region was entered with (`head_array`). Nothing here needs the entries to be finite.
-/
import proofs.«135729_j76433238000372_1_alg».proof.Proof.Spec
import proofs.«135729_j76433238000372_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.HeadBlocks

open Cert.KernelIdeal Cert.KernelIdeal.Gen Cert.Spec Idealize.ShloMosaic.TcCoe Idealize.SL.Sem Idealize.ShloMosaic Idealize.ShloMosaic.ValueIdx

/-! ## Changes of layout, read at an index -/

/-- A column `[a, 1]` viewed as a vector `[a]` reads, at `i`, the column's entry `(i, 0)`. -/
theorem col_as_vec {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A vector `[a]` viewed as a column `[a, 1]` reads, at `(i, z)`, the vector's entry `i`. -/
theorem vec_as_col {α : Type} {a : ℕ} (x : (⟨1, ![a]⟩ : Shape).Idx → α)
    (h : (⟨1, ![a]⟩ : Shape).ShapeCasts ⟨2, ![a, 1]⟩) (i : Fin a) (z : Fin 1) :
    shapeCast ⟨2, ![a, 1]⟩ x h (ix2 i z) = x (ix1 i) :=
  shapeCast_apply x h _ _ (by
    have hz : z.val = 0 := by omega
    rw [Shape.rowMajor_val_two, Shape.rowMajor_val_one]
    show i.val = i.val * 1 + z.val
    omega)

/-- A vector of 128 features laid along the rows of a 2000 x 128 block reads, at `(p, k)`, its entry `k`. -/
theorem row_spread (v : FVec Ideal S128 .f32) (h : S128.ShapeCasts S1x128) (h' : S1x128.Broadcasts S2000x128)
    (p : Fin 2000) (k : Fin 128) :
    broadcastTo S2000x128 (shapeCast S1x128 v h) h' (ix2 p k) = v (ix1 k) := by
  rw [broadcastTo_1b_ab_apply, shapeCast_a_1a_apply]

/-- A single number laid down a 2000 x 1 column reads that number everywhere. -/
theorem one_spread (v : FVec Ideal S1 .f32) (h : S1.ShapeCasts S1x1) (h' : S1x1.Broadcasts S2000x1)
    (p : Fin 2000) (z : Fin 1) :
    broadcastTo S2000x1 (shapeCast S1x1 v h) h' (ix2 p z) = v (ix1 (0 : Fin 1)) := by
  rw [broadcastTo_1b_ab_apply, shapeCast_a_1a_apply]
  exact congrArg v (funext fun a => Fin.ext (by match a with | ⟨0, _⟩ => show z.val = 0; omega))

/-! ## The two contractions -/

/-- The operand indices of the block's matrix product: at output `(p, k)` and contraction coordinate `q` the
    left operand is read at `(p, q)` and the right one at `(q, k)`. -/
theorem lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl
theorem lhs_col (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_row (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- The block's matrix product into a zero accumulator, at `(p, k)`: row `p` of the block against column `k`
    of the weights, summed over the 128 features in their order. -/
theorem prod_at (x : FVec Ideal S2000x128 .bf16) (w : FVec Ideal S128x128 .bf16) (p : Fin 2000) (k : Fin 128) :
    matmul dot_S2000x128_S128x128_S2000x128_1_0_0_1_n_n none x w (constant (F := Ideal) S2000x128 .f32 0x00000000#32) (ix2 p k)
      = ∑ j : Fin 128, x (ix2 p j) * w (ix2 j k) := by
  simp only [matmul]
  rw [Ideal.matmul_constant_zero_apply,
    ← Equiv.sum_comp (contrEquiv1 dot_S2000x128_S128x128_S2000x128_1_0_0_1_n_n 128 rfl rfl).symm]
  refine Finset.sum_congr rfl fun j _ => ?_
  have hj := contrEquiv1_symm_val dot_S2000x128_S128x128_S2000x128_1_0_0_1_n_n 128 rfl rfl j
  have el : dot_S2000x128_S128x128_S2000x128_1_0_0_1_n_n.lhsIdx (ix2 p k)
      ((contrEquiv1 dot_S2000x128_S128x128_S2000x128_1_0_0_1_n_n 128 rfl rfl).symm j) = ix2 p j :=
    funext fun a => Fin.ext (by
      match a with
      | ⟨0, _⟩ => exact lhs_row _ _
      | ⟨1, _⟩ => exact (lhs_col _ _).trans hj)
  have er : dot_S2000x128_S128x128_S2000x128_1_0_0_1_n_n.rhsIdx (ix2 p k)
      ((contrEquiv1 dot_S2000x128_S128x128_S2000x128_1_0_0_1_n_n 128 rfl rfl).symm j) = ix2 j k :=
    funext fun a => Fin.ext (by
      match a with
      | ⟨0, _⟩ => exact (rhs_row _ _).trans hj
      | ⟨1, _⟩ => exact rhs_col _ _)
  rw [el, er]

/-- The sum along a row of a 2000 x 128 block, at row `p`: the 128 entries of the row added in their order. -/
theorem row_sum (v : FVec Ideal S2000x128 .f32) (h : S2000x128.Reduces [1] S2000) (hφ : FKind.Formats .f32)
    (hacc : (0x00000000#32 : BitVec 32) = 0x00000000#32) (p : Fin 2000) :
    multiReduction (F := Ideal) .add [1] S2000 v 0x00000000#32 h hφ hacc (ix1 p) = ∑ k : Fin 128, v (ix2 p k) := by
  refine (Ideal.multiReduction_add_single v 0x00000000#32 h hφ hacc (ix1 p)).trans ?_
  refine Finset.sum_congr rfl fun k _ => congrArg v ?_
  funext a
  apply Fin.ext
  match a with
  | ⟨0, _⟩ => rfl
  | ⟨1, _⟩ => rfl

/-! ## The head's arithmetic on one block -/

/-- The logistic function and the reciprocal square root act entry by entry. -/
theorem logistic_at {s : Shape} {φ : FTy} (v : FVec Ideal s φ) (i : s.Idx) : logistic v i = Ideal.logistic (v i) := rfl
theorem rsqrt_at {s : Shape} {φ : FTy} (v : FVec Ideal s φ) (i : s.Idx) : rsqrt v i = Ideal.rsqrt (v i) := rfl

/-- What the head computes for row `p` of a block of 2000 nodes, from the block `x0` and the parameters: the linear
    map with bias, the normalisation by the running statistics, the rectification, the dot product with the weight
    column, the bias and the logistic function — every sum in the order of the features. -/
theorem pay_at (x0 : Vec Ideal S2000x128 .f32) (x1 : Vec Ideal S128x128 .f32) (b1 var mean gamma beta : Vec Ideal S128 .f32)
    (w2 : Vec Ideal S128x1 .f32) (b2 : Vec Ideal S1 .f32) (p : Fin 2000) (z : Fin 1) :
    k3_pay1 x0 x1 b1 var mean gamma beta w2 b2 (ix2 p z)
      = Ideal.logistic ((∑ k : Fin 128,
          max (((((∑ j : Fin 128, x0 (ix2 p j) * x1 (ix2 j k)) + b1 (ix1 k)) - mean (ix1 k))
            * Ideal.rsqrt (var (ix1 k) + Ideal.ofBits .f32 0x3727C5AC#32)) * gamma (ix1 k) + beta (ix1 k))
            (Ideal.ofBits .f32 0x00000000#32) * w2 (ix2 k (0 : Fin 1))) + b2 (ix1 (0 : Fin 1))) := by
  unfold k3_pay1
  simp only [logistic_at, addf_apply, vec_as_col, one_spread, shapeCast_self]
  refine congrArg (fun s => Ideal.logistic (s + b2 (ix1 (0 : Fin 1)))) ?_
  refine (row_sum _ _ _ _ p).trans ?_
  refine Finset.sum_congr rfl fun k _ => ?_
  simp only [mulf_apply, maximumf_apply, addf_apply, subf_apply, row_spread, rsqrt_at, broadcast_apply, prod_at,
    truncf_apply, col_as_vec]
  rfl

/-! ## One row of the head, from a block and from the whole arrays -/

/-- Row `p` of a block is row `r` of the head when the block's row `p` is the feature array's row `r` and the
    parameters are the head's. -/
theorem point_eq (h : Feat) (w1 : Mat) (b1 gamma beta mean var : Row) (w2 : Col) (b2 : One)
    (x0 : Vec Ideal S2000x128 .f32) (x1 : Vec Ideal S128x128 .f32) (x2 x3 x4 x5 x6 : Vec Ideal S128 .f32)
    (x7 : Vec Ideal S128x1 .f32) (x8 : Vec Ideal S1 .f32) (p : Fin 2000) (z : Fin 1) (r : Fin 50000)
    (h0 : ∀ j : Fin 128, x0 (ix2 p j) = h (ix2 r j))
    (h1 : ∀ y, x1 y = w1 y) (h2 : ∀ y, x2 y = b1 y) (h3 : ∀ y, x3 y = gamma y) (h4 : ∀ y, x4 y = beta y)
    (h5 : ∀ y, x5 y = mean y) (h6 : ∀ y, x6 y = var y) (h7 : ∀ y, x7 y = w2 y) (h8 : ∀ y, x8 y = b2 y) :
    k3_pay1 x0 x1 x2 x6 x5 x3 x4 x7 x8 (ix2 p z) = headAt h w1 b1 gamma beta mean var w2 b2 r := by
  rw [pay_at]
  unfold headAt hiddenAt
  simp only [h0, h1, h2, h3, h4, h5, h6, h7, h8]

/-! ## The blocks, read off the arrays -/

section Blocks

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- Where the blocks sit, decided over the 25 grid points: the feature block and the output block of point `t` are the
    `t`-th blocks of rows; every parameter is one block, the whole array. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 1) = 0 ∧ win3_3.index t (0 : Fin 1) = 0 ∧ win3_4.index t (0 : Fin 1) = 0
    ∧ win3_5.index t (0 : Fin 1) = 0 ∧ win3_6.index t (0 : Fin 1) = 0
    ∧ win3_7.index t (0 : Fin 2) = 0 ∧ win3_7.index t (1 : Fin 2) = 0
    ∧ win3_8.index t (0 : Fin 1) = 0
    ∧ win3_9.index t (0 : Fin 2) = t.val ∧ win3_9.index t (1 : Fin 2) = 0 :=
  (by decide +kernel : ∀ t : Fin grid3.N, _)

/-- Row `p` of point `t`'s feature block is row `t * 2000 + p` of the feature array. -/
theorem blk0_at (c : Dev nD) (t : Fin cfg3.N) (p : Fin 2000) (k : Fin 128) (r : Fin 50000) (hr : r.val = t.val * 2000 + p.val) :
    iblk3 V c 0 t (ix2 p k) = V c (Pipeline.arrRef spec3 0) (ix2 r k) := by
  obtain ⟨e0, e1, -⟩ := idx_facts t
  show V c (Pipeline.arrRef spec3 0) (((cfg3.win 0).blk t).view.emb (ix2 p k)) = _
  refine congrArg (V c (Pipeline.arrRef spec3 0)) (funext fun a => Fin.ext ?_)
  match a with
  | ⟨0, _⟩ => show win3_0.index t (0 : Fin 2) * 2000 + 1 * p.val = r.val; omega
  | ⟨1, _⟩ => show win3_0.index t (1 : Fin 2) * 128 + 1 * k.val = k.val; omega

/-- Each parameter's block is the parameter. -/
theorem blk1_at (c : Dev nD) (t : Fin cfg3.N) (y : S128x128.Idx) :
    iblk3 V c 1 t y = V c (Pipeline.arrRef spec3 1) y := by
  obtain ⟨-, -, e0, e1, -⟩ := idx_facts t
  show V c (Pipeline.arrRef spec3 1) (((cfg3.win 1).blk t).view.emb y) = _
  refine congrArg (V c (Pipeline.arrRef spec3 1)) (funext fun a => Fin.ext ?_)
  match a with
  | ⟨0, _⟩ => show win3_1.index t (0 : Fin 2) * 128 + 1 * (y 0).val = (y 0).val; omega
  | ⟨1, _⟩ => show win3_1.index t (1 : Fin 2) * 128 + 1 * (y 1).val = (y 1).val; omega

theorem blk2_at (c : Dev nD) (t : Fin cfg3.N) (y : S128.Idx) :
    iblk3 V c 2 t y = V c (Pipeline.arrRef spec3 2) y := by
  obtain ⟨-, -, -, -, e0, -⟩ := idx_facts t
  show V c (Pipeline.arrRef spec3 2) (((cfg3.win 2).blk t).view.emb y) = _
  refine congrArg (V c (Pipeline.arrRef spec3 2)) (funext fun a => Fin.ext ?_)
  match a with
  | ⟨0, _⟩ => show win3_2.index t (0 : Fin 1) * 128 + 1 * (y 0).val = (y 0).val; omega

theorem blk3_at (c : Dev nD) (t : Fin cfg3.N) (y : S128.Idx) :
    iblk3 V c 3 t y = V c (Pipeline.arrRef spec3 3) y := by
  obtain ⟨-, -, -, -, -, e0, -⟩ := idx_facts t
  show V c (Pipeline.arrRef spec3 3) (((cfg3.win 3).blk t).view.emb y) = _
  refine congrArg (V c (Pipeline.arrRef spec3 3)) (funext fun a => Fin.ext ?_)
  match a with
  | ⟨0, _⟩ => show win3_3.index t (0 : Fin 1) * 128 + 1 * (y 0).val = (y 0).val; omega

theorem blk4_at (c : Dev nD) (t : Fin cfg3.N) (y : S128.Idx) :
    iblk3 V c 4 t y = V c (Pipeline.arrRef spec3 4) y := by
  obtain ⟨-, -, -, -, -, -, e0, -⟩ := idx_facts t
  show V c (Pipeline.arrRef spec3 4) (((cfg3.win 4).blk t).view.emb y) = _
  refine congrArg (V c (Pipeline.arrRef spec3 4)) (funext fun a => Fin.ext ?_)
  match a with
  | ⟨0, _⟩ => show win3_4.index t (0 : Fin 1) * 128 + 1 * (y 0).val = (y 0).val; omega

theorem blk5_at (c : Dev nD) (t : Fin cfg3.N) (y : S128.Idx) :
    iblk3 V c 5 t y = V c (Pipeline.arrRef spec3 5) y := by
  obtain ⟨-, -, -, -, -, -, -, e0, -⟩ := idx_facts t
  show V c (Pipeline.arrRef spec3 5) (((cfg3.win 5).blk t).view.emb y) = _
  refine congrArg (V c (Pipeline.arrRef spec3 5)) (funext fun a => Fin.ext ?_)
  match a with
  | ⟨0, _⟩ => show win3_5.index t (0 : Fin 1) * 128 + 1 * (y 0).val = (y 0).val; omega

theorem blk6_at (c : Dev nD) (t : Fin cfg3.N) (y : S128.Idx) :
    iblk3 V c 6 t y = V c (Pipeline.arrRef spec3 6) y := by
  obtain ⟨-, -, -, -, -, -, -, -, e0, -⟩ := idx_facts t
  show V c (Pipeline.arrRef spec3 6) (((cfg3.win 6).blk t).view.emb y) = _
  refine congrArg (V c (Pipeline.arrRef spec3 6)) (funext fun a => Fin.ext ?_)
  match a with
  | ⟨0, _⟩ => show win3_6.index t (0 : Fin 1) * 128 + 1 * (y 0).val = (y 0).val; omega

theorem blk7_at (c : Dev nD) (t : Fin cfg3.N) (y : S128x1.Idx) :
    iblk3 V c 7 t y = V c (Pipeline.arrRef spec3 7) y := by
  obtain ⟨-, -, -, -, -, -, -, -, -, e0, e1, -⟩ := idx_facts t
  show V c (Pipeline.arrRef spec3 7) (((cfg3.win 7).blk t).view.emb y) = _
  refine congrArg (V c (Pipeline.arrRef spec3 7)) (funext fun a => Fin.ext ?_)
  match a with
  | ⟨0, _⟩ => show win3_7.index t (0 : Fin 2) * 128 + 1 * (y 0).val = (y 0).val; omega
  | ⟨1, _⟩ => show win3_7.index t (1 : Fin 2) * 1 + 1 * (y 1).val = (y 1).val; omega

theorem blk8_at (c : Dev nD) (t : Fin cfg3.N) (y : S1.Idx) :
    iblk3 V c 8 t y = V c (Pipeline.arrRef spec3 8) y := by
  obtain ⟨-, -, -, -, -, -, -, -, -, -, -, e0, -⟩ := idx_facts t
  show V c (Pipeline.arrRef spec3 8) (((cfg3.win 8).blk t).view.emb y) = _
  refine congrArg (V c (Pipeline.arrRef spec3 8)) (funext fun a => Fin.ext ?_)
  match a with
  | ⟨0, _⟩ => show win3_8.index t (0 : Fin 1) * 1 + 1 * (y 0).val = (y 0).val; omega

/-- Row `p` of point `t`'s output block is row `t * 2000 + p` of the output array. -/
theorem out_at (t : Fin cfg3.N) (p : Fin 2000) (z : Fin 1) (r : Fin 50000) (hr : r.val = t.val * 2000 + p.val) :
    ((cfg3.win 9).blk t).view.emb (ix2 p z) = ix2 r z := by
  obtain ⟨-, -, -, -, -, -, -, -, -, -, -, -, e0, e1⟩ := idx_facts t
  refine funext fun a => Fin.ext ?_
  match a with
  | ⟨0, _⟩ => show win3_9.index t (0 : Fin 2) * 2000 + 1 * p.val = r.val; omega
  | ⟨1, _⟩ => show win3_9.index t (1 : Fin 2) * 1 + 1 * z.val = z.val; omega

/-! ## What a grid point writes back, and the array after all of them -/

set_option maxHeartbeats 1000000 in
/-- What point `t` writes back is block `t` of the head of the arrays as the region finds them. -/
theorem flushed_eq (c : Dev nD) (t : Fin cfg3.N) :
    (dat3 (F := Ideal) V c).flushed 9 t
      = ((cfg3.win 9).blk t).view.read (Elt Ideal) (Spec.head (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8))) := by
  show (cfg3.win 9).cut (grid3.coords t) ((dat3 V c).after 9 t) = _
  rw [after3_9]
  unfold out3_9
  rw [View.canon_unit_zero hz2]
  simp only [View.ld_unit_zero (S := S2000x128) hz2, View.ld_unit_zero (S := S128x128) hz2, View.ld_unit_zero (S := S128) hz1,
    View.ld_unit_zero (S := S128x1) hz2, View.ld_unit_zero (S := S1) hz1]
  funext j
  have hp : (j 0).val < 2000 := (j 0).isLt
  have hz : (j 1).val < 1 := (j 1).isLt
  have hN : grid3.N = 25 := N_3
  have ht : t.val < 25 := hN ▸ t.isLt
  have hj : j = ix2 (⟨(j 0).val, hp⟩ : Fin 2000) (⟨(j 1).val, hz⟩ : Fin 1) :=
    funext fun a => Fin.ext (by match a with | ⟨0, _⟩ => rfl | ⟨1, _⟩ => rfl)
  rw [hj]
  show k3_pay1 (iblk3 V c 0 t) (iblk3 V c 1 t) (iblk3 V c 2 t) (iblk3 V c 6 t) (iblk3 V c 5 t) (iblk3 V c 3 t) (iblk3 V c 4 t)
      (iblk3 V c 7 t) (iblk3 V c 8 t) (ix2 (⟨(j 0).val, hp⟩ : Fin 2000) (⟨(j 1).val, hz⟩ : Fin 1))
    = Spec.head (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) (((cfg3.win 9).blk t).view.emb (ix2 (⟨(j 0).val, hp⟩ : Fin 2000) (⟨(j 1).val, hz⟩ : Fin 1)))
  refine Eq.trans ?_ (congrArg (Spec.head (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)))
    (out_at t ⟨(j 0).val, hp⟩ ⟨(j 1).val, hz⟩ ⟨t.val * 2000 + (j 0).val, by omega⟩ rfl)).symm
  rw [Spec.head_apply]
  exact point_eq _ _ _ _ _ _ _ _ _ _ _ _ _ _ _ _ _ _ _ _ ⟨t.val * 2000 + (j 0).val, by omega⟩
    (fun k => blk0_at V c t _ k _ rfl) (blk1_at V c t) (blk2_at V c t) (blk3_at V c t) (blk4_at V c t) (blk5_at V c t)
    (blk6_at V c t) (blk7_at V c t) (blk8_at V c t)

/-- An index of the output array is in point `t`'s block exactly when each coordinate is in the block's range. -/
theorem mem_blk (t : Fin cfg3.N) (i : S50000x1.Idx) :
    i ∈ ((cfg3.win 9).blk t).view.set ↔ ∀ a : Fin 2, win3_9.index t a * S2000x1.size a ≤ (i a).val
      ∧ (i a).val < win3_9.index t a * S2000x1.size a + S2000x1.size a := by
  show i ∈ ((View.whole main_v125).slice (win3_9.rect t)).set ↔ _
  rw [View.set_slice_whole, Rect.mem_set_unit]
  exact Iff.rfl

/-- Every row of the output array is in some point's block: row `r` in that of point `r / 2000`. -/
theorem cover (i : S50000x1.Idx) :
    ∃ t : Fin cfg3.N, (cfg3.win 9).flush t = true ∧ i ∈ ((cfg3.win 9).blk t).view.set := by
  have hi0 : (i 0).val < 50000 := (i 0).isLt
  have hi1 : (i 1).val < 1 := (i 1).isLt
  have hN : cfg3.N = 25 := N_3
  obtain ⟨t, ht⟩ : ∃ t : Fin cfg3.N, t.val = (i 0).val / 2000 := ⟨⟨(i 0).val / 2000, by rw [hN]; omega⟩, rfl⟩
  obtain ⟨-, -, -, -, -, -, -, -, -, -, -, -, e0, e1⟩ := idx_facts t
  refine ⟨t, flush3_9 t, ?_⟩
  rw [mem_blk]
  intro a
  match a with
  | ⟨0, _⟩ =>
    show win3_9.index t (0 : Fin 2) * 2000 ≤ (i 0).val ∧ (i 0).val < win3_9.index t (0 : Fin 2) * 2000 + 2000
    omega
  | ⟨1, _⟩ =>
    show win3_9.index t (1 : Fin 2) * 1 ≤ (i 1).val ∧ (i 1).val < win3_9.index t (1 : Fin 2) * 1 + 1
    omega

/-- THE HEAD'S OUTPUT ARRAY after the 25 points: the head of the arrays as the region finds them, row by row. -/
theorem head_array (c : Dev nD) :
    (dat3 (F := Ideal) V c).arrAt 9 cfg3.N = Spec.head (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) :=
  (dat3 V c).arrAt_eq_of_cover 9 (Spec.head (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8))) (fun t _ => flushed_eq V c t) cover

end Blocks

end Cert.HeadBlocks

end
-- ==== Proof.RefStages.lean ====
/-
  The reference network, stage by stage, is the specification.

  Each Chebyshev layer of the reference is three matrix products added left to right, a bias broadcast along the
  rows and (in the first two layers) a maximum with zero; read at entry (r, c) this is the specification's
  combineAt of the layer's three operand arrays.  Slice s of the stacked weights, reshaped from 1 x 128 x 128 to
  128 x 128, is read at (k, c) as entry (s, k, c) of the stack: the reshape sends the flat position k * 128 + c
  back to (k, c), which is the only arithmetic here (split_flat).  The two propagated operands of a layer (sums
  over the graph's edges) are left as they are: both sides name the same arrays.

  The head is read the same way: feature k of node r after the first linear map, the normalisation by running
  statistics and the rectifier is hiddenAt, and the output is the logistic function, spelt 1 / (1 + exp (-z)),
  of the second linear map.
-/
import proofs.«135729_j76433238000372_1_alg».proof.Proof.Spec
import proofs.«135729_j76433238000372_1_alg».proof.Proof.Gen.ReferenceIdeal.Read
import Idealize.ShloMosaic.Lib.IdealHost

noncomputable section

namespace Cert.RefStages

open Cert.ReferenceIdeal Cert.ReferenceIdeal.Read Cert.Spec Idealize.ShloMosaic Idealize.ShloMosaic.ValueIdx

/-- The flat position k * 128 + c of a 128 x 128 array splits back into row k and column c. -/
theorem split_flat (k c : Fin 128) :
    (k.val * 128 + c.val) / 128 % 128 = k.val ∧ (k.val * 128 + c.val) % 128 = c.val := by
  have hk := k.isLt
  have hc := c.isLt
  omega

/-- The first layer: x, its two propagated arrays, the first weight stack and bias, rectified. -/
theorem layer1 (x0 : (⟨S50000x128, .f32⟩ : BufTy).Contents (Elt Ideal)) (x1 : (⟨S2x800000, .i32⟩ : BufTy).Contents (Elt Ideal))
    (x2 : (⟨S800000, .f32⟩ : BufTy).Contents (Elt Ideal))
    (x3 : (⟨S3x128x128, .f32⟩ : BufTy).Contents (Elt Ideal)) (x4 : (⟨S128, .f32⟩ : BufTy).Contents (Elt Ideal)) :
    val_main_v78 (F := Ideal) x0 x1 x2 x3 x4
      = combineRelu x0 (val_main_v50 (F := Ideal) x0 x1 x2) (val_main_v70 (F := Ideal) x0 x1 x2) x3 x4 := by
  funext i
  obtain ⟨r, c, rfl⟩ : ∃ (r : Fin 50000) (c : Fin 128), i = ix2 r c := ⟨i 0, i 1, eq_ix2 i⟩
  -- row r of each left factor, column k
  have l0 : ∀ k : Fin 128, lidx_main_v37 (ix2 r c) k = ix2 r k := fun k =>
    funext fun a => Fin.ext (by match a with | ⟨0, _⟩ => rfl | ⟨1, _⟩ => rfl)
  have l1 : ∀ k : Fin 128, lidx_main_v53 (ix2 r c) k = ix2 r k := fun k =>
    funext fun a => Fin.ext (by match a with | ⟨0, _⟩ => rfl | ⟨1, _⟩ => rfl)
  have l2 : ∀ k : Fin 128, lidx_main_v73 (ix2 r c) k = ix2 r k := fun k =>
    funext fun a => Fin.ext (by match a with | ⟨0, _⟩ => rfl | ⟨1, _⟩ => rfl)
  -- entry (k, c) of the reshaped slice s is entry (s, k, c) of the stack
  have w0 : ∀ k : Fin 128, idx_main_v35 (idx_main_v36 (ridx_main_v37 (ix2 r c) k)) = ix3 (0 : Fin 3) k c := fun k =>
    funext fun a => Fin.ext (by
      match a with | ⟨0, _⟩ => rfl | ⟨1, _⟩ => exact (split_flat k c).1 | ⟨2, _⟩ => exact (split_flat k c).2)
  have w1 : ∀ k : Fin 128, idx_main_v51 (idx_main_v52 (ridx_main_v53 (ix2 r c) k)) = ix3 (1 : Fin 3) k c := fun k =>
    funext fun a => Fin.ext (by
      match a with | ⟨0, _⟩ => rfl | ⟨1, _⟩ => exact (split_flat k c).1 | ⟨2, _⟩ => exact (split_flat k c).2)
  have w2 : ∀ k : Fin 128, idx_main_v71 (idx_main_v72 (ridx_main_v73 (ix2 r c) k)) = ix3 (2 : Fin 3) k c := fun k =>
    funext fun a => Fin.ext (by
      match a with | ⟨0, _⟩ => rfl | ⟨1, _⟩ => exact (split_flat k c).1 | ⟨2, _⟩ => exact (split_flat k c).2)
  -- the bias is broadcast along the rows
  have hb : idx_main_v75 (idx_main_v76 (ix2 r c)) = ix1 c :=
    funext fun a => Fin.ext (by match a with | ⟨0, _⟩ => rfl)
  rw [combineRelu_apply, val_main_v78_apply, val_main_v77_apply, val_main_v74_apply, val_main_v54_apply,
    val_main_v37_apply, val_main_v53_apply, val_main_v73_apply, val_main_v76_apply, val_main_v75_apply,
    val_main_call2_v0_apply, val_main_call2_cst_apply]
  simp only [val_main_v36_apply, val_main_v35_apply, val_main_v52_apply, val_main_v51_apply,
    val_main_v72_apply, val_main_v71_apply, l0, l1, l2, w0, w1, w2, hb,
    Ideal.addf_def, Ideal.maximumf_def, Ideal.ofBits_def]
  rfl

/-- The second layer: the first layer's output, its two propagated arrays, the second weight stack and bias,
    rectified. -/
theorem layer2 (x0 : (⟨S50000x128, .f32⟩ : BufTy).Contents (Elt Ideal)) (x1 : (⟨S2x800000, .i32⟩ : BufTy).Contents (Elt Ideal))
    (x2 : (⟨S800000, .f32⟩ : BufTy).Contents (Elt Ideal))
    (x3 : (⟨S3x128x128, .f32⟩ : BufTy).Contents (Elt Ideal)) (x4 : (⟨S128, .f32⟩ : BufTy).Contents (Elt Ideal))
    (x5 : (⟨S3x128x128, .f32⟩ : BufTy).Contents (Elt Ideal)) (x6 : (⟨S128, .f32⟩ : BufTy).Contents (Elt Ideal)) :
    val_main_v122 (F := Ideal) x0 x1 x2 x3 x4 x5 x6
      = combineRelu (val_main_v78 (F := Ideal) x0 x1 x2 x3 x4) (val_main_v94 (F := Ideal) x0 x1 x2 x3 x4)
          (val_main_v114 (F := Ideal) x0 x1 x2 x3 x4) x5 x6 := by
  funext i
  obtain ⟨r, c, rfl⟩ : ∃ (r : Fin 50000) (c : Fin 128), i = ix2 r c := ⟨i 0, i 1, eq_ix2 i⟩
  have l0 : ∀ k : Fin 128, lidx_main_v81 (ix2 r c) k = ix2 r k := fun k =>
    funext fun a => Fin.ext (by match a with | ⟨0, _⟩ => rfl | ⟨1, _⟩ => rfl)
  have l1 : ∀ k : Fin 128, lidx_main_v97 (ix2 r c) k = ix2 r k := fun k =>
    funext fun a => Fin.ext (by match a with | ⟨0, _⟩ => rfl | ⟨1, _⟩ => rfl)
  have l2 : ∀ k : Fin 128, lidx_main_v117 (ix2 r c) k = ix2 r k := fun k =>
    funext fun a => Fin.ext (by match a with | ⟨0, _⟩ => rfl | ⟨1, _⟩ => rfl)
  have w0 : ∀ k : Fin 128, idx_main_v79 (idx_main_v80 (ridx_main_v81 (ix2 r c) k)) = ix3 (0 : Fin 3) k c := fun k =>
    funext fun a => Fin.ext (by
      match a with | ⟨0, _⟩ => rfl | ⟨1, _⟩ => exact (split_flat k c).1 | ⟨2, _⟩ => exact (split_flat k c).2)
  have w1 : ∀ k : Fin 128, idx_main_v95 (idx_main_v96 (ridx_main_v97 (ix2 r c) k)) = ix3 (1 : Fin 3) k c := fun k =>
    funext fun a => Fin.ext (by
      match a with | ⟨0, _⟩ => rfl | ⟨1, _⟩ => exact (split_flat k c).1 | ⟨2, _⟩ => exact (split_flat k c).2)
  have w2 : ∀ k : Fin 128, idx_main_v115 (idx_main_v116 (ridx_main_v117 (ix2 r c) k)) = ix3 (2 : Fin 3) k c := fun k =>
    funext fun a => Fin.ext (by
      match a with | ⟨0, _⟩ => rfl | ⟨1, _⟩ => exact (split_flat k c).1 | ⟨2, _⟩ => exact (split_flat k c).2)
  have hb : idx_main_v119 (idx_main_v120 (ix2 r c)) = ix1 c :=
    funext fun a => Fin.ext (by match a with | ⟨0, _⟩ => rfl)
  rw [combineRelu_apply, val_main_v122_apply, val_main_v121_apply, val_main_v118_apply, val_main_v98_apply,
    val_main_v81_apply, val_main_v97_apply, val_main_v117_apply, val_main_v120_apply, val_main_v119_apply,
    val_main_call3_v0_apply, val_main_call3_cst_apply]
  simp only [val_main_v80_apply, val_main_v79_apply, val_main_v96_apply, val_main_v95_apply,
    val_main_v116_apply, val_main_v115_apply, l0, l1, l2, w0, w1, w2, hb,
    Ideal.addf_def, Ideal.maximumf_def, Ideal.ofBits_def]
  rfl

/-- The third layer: the second layer's output, its two propagated arrays, the third weight stack and bias; no
    rectifier. -/
theorem layer3 (x0 : (⟨S50000x128, .f32⟩ : BufTy).Contents (Elt Ideal)) (x1 : (⟨S2x800000, .i32⟩ : BufTy).Contents (Elt Ideal))
    (x2 : (⟨S800000, .f32⟩ : BufTy).Contents (Elt Ideal))
    (x3 : (⟨S3x128x128, .f32⟩ : BufTy).Contents (Elt Ideal)) (x4 : (⟨S128, .f32⟩ : BufTy).Contents (Elt Ideal))
    (x5 : (⟨S3x128x128, .f32⟩ : BufTy).Contents (Elt Ideal)) (x6 : (⟨S128, .f32⟩ : BufTy).Contents (Elt Ideal))
    (x7 : (⟨S3x128x128, .f32⟩ : BufTy).Contents (Elt Ideal)) (x8 : (⟨S128, .f32⟩ : BufTy).Contents (Elt Ideal)) :
    val_main_v165 (F := Ideal) x0 x1 x2 x3 x4 x5 x6 x7 x8
      = combine (val_main_v122 (F := Ideal) x0 x1 x2 x3 x4 x5 x6) (val_main_v138 (F := Ideal) x0 x1 x2 x3 x4 x5 x6)
          (val_main_v158 (F := Ideal) x0 x1 x2 x3 x4 x5 x6) x7 x8 := by
  funext i
  obtain ⟨r, c, rfl⟩ : ∃ (r : Fin 50000) (c : Fin 128), i = ix2 r c := ⟨i 0, i 1, eq_ix2 i⟩
  have l0 : ∀ k : Fin 128, lidx_main_v125 (ix2 r c) k = ix2 r k := fun k =>
    funext fun a => Fin.ext (by match a with | ⟨0, _⟩ => rfl | ⟨1, _⟩ => rfl)
  have l1 : ∀ k : Fin 128, lidx_main_v141 (ix2 r c) k = ix2 r k := fun k =>
    funext fun a => Fin.ext (by match a with | ⟨0, _⟩ => rfl | ⟨1, _⟩ => rfl)
  have l2 : ∀ k : Fin 128, lidx_main_v161 (ix2 r c) k = ix2 r k := fun k =>
    funext fun a => Fin.ext (by match a with | ⟨0, _⟩ => rfl | ⟨1, _⟩ => rfl)
  have w0 : ∀ k : Fin 128, idx_main_v123 (idx_main_v124 (ridx_main_v125 (ix2 r c) k)) = ix3 (0 : Fin 3) k c := fun k =>
    funext fun a => Fin.ext (by
      match a with | ⟨0, _⟩ => rfl | ⟨1, _⟩ => exact (split_flat k c).1 | ⟨2, _⟩ => exact (split_flat k c).2)
  have w1 : ∀ k : Fin 128, idx_main_v139 (idx_main_v140 (ridx_main_v141 (ix2 r c) k)) = ix3 (1 : Fin 3) k c := fun k =>
    funext fun a => Fin.ext (by
      match a with | ⟨0, _⟩ => rfl | ⟨1, _⟩ => exact (split_flat k c).1 | ⟨2, _⟩ => exact (split_flat k c).2)
  have w2 : ∀ k : Fin 128, idx_main_v159 (idx_main_v160 (ridx_main_v161 (ix2 r c) k)) = ix3 (2 : Fin 3) k c := fun k =>
    funext fun a => Fin.ext (by
      match a with | ⟨0, _⟩ => rfl | ⟨1, _⟩ => exact (split_flat k c).1 | ⟨2, _⟩ => exact (split_flat k c).2)
  have hb : idx_main_v163 (idx_main_v164 (ix2 r c)) = ix1 c :=
    funext fun a => Fin.ext (by match a with | ⟨0, _⟩ => rfl)
  rw [combine_apply, val_main_v165_apply, val_main_v162_apply, val_main_v142_apply,
    val_main_v125_apply, val_main_v141_apply, val_main_v161_apply, val_main_v164_apply, val_main_v163_apply]
  simp only [val_main_v124_apply, val_main_v123_apply, val_main_v140_apply, val_main_v139_apply,
    val_main_v160_apply, val_main_v159_apply, l0, l1, l2, w0, w1, w2, hb, Ideal.addf_def]
  rfl

/-- Feature k of node r in the head, after the first linear map, the normalisation and the rectifier. -/
theorem hidden (x0 : (⟨S50000x128, .f32⟩ : BufTy).Contents (Elt Ideal)) (x1 : (⟨S2x800000, .i32⟩ : BufTy).Contents (Elt Ideal))
    (x2 : (⟨S800000, .f32⟩ : BufTy).Contents (Elt Ideal))
    (x3 : (⟨S3x128x128, .f32⟩ : BufTy).Contents (Elt Ideal)) (x4 : (⟨S128, .f32⟩ : BufTy).Contents (Elt Ideal))
    (x5 : (⟨S3x128x128, .f32⟩ : BufTy).Contents (Elt Ideal)) (x6 : (⟨S128, .f32⟩ : BufTy).Contents (Elt Ideal))
    (x7 : (⟨S3x128x128, .f32⟩ : BufTy).Contents (Elt Ideal)) (x8 : (⟨S128, .f32⟩ : BufTy).Contents (Elt Ideal))
    (x9 : (⟨S128x128, .f32⟩ : BufTy).Contents (Elt Ideal))
    (x10 x11 x12 x13 x14 : (⟨S128, .f32⟩ : BufTy).Contents (Elt Ideal))
    (r : Fin 50000) (k : Fin 128) :
    val_main_v185 (F := Ideal) x0 x1 x2 x3 x4 x5 x6 x7 x8 x9 x10 x11 x12 x13 x14 (ix2 r k)
      = hiddenAt (val_main_v165 (F := Ideal) x0 x1 x2 x3 x4 x5 x6 x7 x8) x9 x10 x11 x12 x13 x14 r k := by
  have l : ∀ j : Fin 128, lidx_main_v166 (ix2 r k) j = ix2 r j := fun j =>
    funext fun a => Fin.ext (by match a with | ⟨0, _⟩ => rfl | ⟨1, _⟩ => rfl)
  have w : ∀ j : Fin 128, ridx_main_v166 (ix2 r k) j = ix2 j k := fun j =>
    funext fun a => Fin.ext (by match a with | ⟨0, _⟩ => rfl | ⟨1, _⟩ => rfl)
  -- the five per-feature vectors are broadcast along the rows
  have b10 : idx_main_v167 (idx_main_v168 (ix2 r k)) = ix1 k :=
    funext fun a => Fin.ext (by match a with | ⟨0, _⟩ => rfl)
  have b13 : idx_main_v170 (idx_main_v171 (ix2 r k)) = ix1 k :=
    funext fun a => Fin.ext (by match a with | ⟨0, _⟩ => rfl)
  have b14 : idx_main_v176 (idx_main_v177 (ix2 r k)) = ix1 k :=
    funext fun a => Fin.ext (by match a with | ⟨0, _⟩ => rfl)
  have b11 : idx_main_v179 (idx_main_v180 (ix2 r k)) = ix1 k :=
    funext fun a => Fin.ext (by match a with | ⟨0, _⟩ => rfl)
  have b12 : idx_main_v182 (idx_main_v183 (ix2 r k)) = ix1 k :=
    funext fun a => Fin.ext (by match a with | ⟨0, _⟩ => rfl)
  rw [val_main_v185_apply, val_main_v184_apply, val_main_v181_apply, val_main_v178_apply, val_main_v172_apply,
    val_main_v169_apply, val_main_v166_apply, val_main_v168_apply, val_main_v167_apply, val_main_v171_apply,
    val_main_v170_apply, val_main_v177_apply, val_main_v176_apply, val_main_v175_apply, val_main_v174_apply,
    val_main_v173_apply, val_main_cst_28_apply, val_main_v180_apply, val_main_v179_apply, val_main_v183_apply,
    val_main_v182_apply, val_main_call4_v0_apply, val_main_call4_cst_apply]
  simp only [l, w, b10, b11, b12, b13, b14, Ideal.addf_def, Ideal.subf_def, Ideal.mulf_def, Ideal.maximumf_def,
    Ideal.hostUnary_rsqrt_def, Ideal.ofBits_def]
  rfl

/-- The head: the logistic function, spelt 1 / (1 + exp (-z)), of the second linear map of the hidden features. -/
theorem headStage (x0 : (⟨S50000x128, .f32⟩ : BufTy).Contents (Elt Ideal)) (x1 : (⟨S2x800000, .i32⟩ : BufTy).Contents (Elt Ideal))
    (x2 : (⟨S800000, .f32⟩ : BufTy).Contents (Elt Ideal))
    (x3 : (⟨S3x128x128, .f32⟩ : BufTy).Contents (Elt Ideal)) (x4 : (⟨S128, .f32⟩ : BufTy).Contents (Elt Ideal))
    (x5 : (⟨S3x128x128, .f32⟩ : BufTy).Contents (Elt Ideal)) (x6 : (⟨S128, .f32⟩ : BufTy).Contents (Elt Ideal))
    (x7 : (⟨S3x128x128, .f32⟩ : BufTy).Contents (Elt Ideal)) (x8 : (⟨S128, .f32⟩ : BufTy).Contents (Elt Ideal))
    (x9 : (⟨S128x128, .f32⟩ : BufTy).Contents (Elt Ideal))
    (x10 x11 x12 x13 x14 : (⟨S128, .f32⟩ : BufTy).Contents (Elt Ideal))
    (x15 : (⟨S128x1, .f32⟩ : BufTy).Contents (Elt Ideal)) (x16 : (⟨S1, .f32⟩ : BufTy).Contents (Elt Ideal)) :
    val_main_v195 (F := Ideal) x0 x1 x2 x3 x4 x5 x6 x7 x8 x9 x10 x11 x12 x13 x14 x15 x16
      = head (val_main_v165 (F := Ideal) x0 x1 x2 x3 x4 x5 x6 x7 x8) x9 x10 x11 x12 x13 x14 x15 x16 := by
  funext i
  obtain ⟨r, z, rfl⟩ : ∃ (r : Fin 50000) (z : Fin 1), i = ix2 r z := ⟨i 0, i 1, eq_ix2 i⟩
  obtain rfl : z = 0 := Subsingleton.elim _ _
  have l : ∀ k : Fin 128, lidx_main_v186 (ix2 r (0 : Fin 1)) k = ix2 r k := fun k =>
    funext fun a => Fin.ext (by match a with | ⟨0, _⟩ => rfl | ⟨1, _⟩ => rfl)
  have w : ∀ k : Fin 128, ridx_main_v186 (ix2 r (0 : Fin 1)) k = ix2 k (0 : Fin 1) := fun k =>
    funext fun a => Fin.ext (by match a with | ⟨0, _⟩ => rfl | ⟨1, _⟩ => rfl)
  have b : idx_main_v187 (idx_main_v188 (ix2 r (0 : Fin 1))) = ix1 (0 : Fin 1) :=
    funext fun a => Fin.ext (by match a with | ⟨0, _⟩ => rfl)
  rw [head_apply, val_main_v195_apply, val_main_v194_apply, val_main_cst_30_apply, val_main_v193_apply,
    val_main_v192_apply, val_main_cst_29_apply, val_main_v191_apply, val_main_v190_apply, val_main_v189_apply,
    val_main_v186_apply, val_main_v188_apply, val_main_v187_apply]
  simp only [l, w, b, hidden, Ideal.hostDivf_def, Ideal.addf_def, Ideal.hostUnary_exp_def, Ideal.hostNegf_def,
    Ideal.negf_def, Ideal.ofBits_def, Ideal.ofBits_one_f32]
  rfl

end Cert.RefStages

end
-- ==== Proof.KernelValue.lean ====
/-
  The idealized kernel program's result is the reference's last stage.

  Layer by layer: a layer's kernel finds, at its entry, the previous layer's output H and the two propagated arrays
  T1 = P H and T2 = 2 P (P H) - H that the host operations before it computed — the same terms as the reference's —
  and leaves the layer of (H, T1, T2) with its weights and bias, which is the reference's stage for that layer (its
  three products added in the same order, the bias last, the same rectification).  The head's kernel finds the third
  layer's output and the head's eight parameter arrays as launched, and leaves the head of them: the reference's
  result.
-/
import proofs.«135729_j76433238000372_1_alg».proof.Proof.Spec
import proofs.«135729_j76433238000372_1_alg».proof.Proof.HostChain
import proofs.«135729_j76433238000372_1_alg».proof.Proof.Layer0Blocks
import proofs.«135729_j76433238000372_1_alg».proof.Proof.Layer1Blocks
import proofs.«135729_j76433238000372_1_alg».proof.Proof.Layer2Blocks
import proofs.«135729_j76433238000372_1_alg».proof.Proof.HeadBlocks
import proofs.«135729_j76433238000372_1_alg».proof.Proof.RefStages

set_option maxRecDepth 16384

noncomputable section

namespace Cert.KernelValue

open Cert.KernelIdeal Cert.KernelIdeal.Gen Cert.HostChain Idealize.ShloMosaic Idealize.ShloMosaic.TcCoe Idealize.SL.Sem
open Cert.ReferenceIdeal.Read (val_main_v50 val_main_v70 val_main_v78 val_main_v94 val_main_v114
  val_main_v122 val_main_v138 val_main_v158 val_main_v165 val_main_v195)

variable (m : (ℓ : Loc nD τ sig) → Buf (Elt Ideal) ℓ) (ρ : Dev nD → PrngReg) (c : Dev nD)

/-- The first layer's kernel leaves the reference's first layer. -/
theorem out0 : W6 m ρ c (Proc.devRef .tc main_v64) = val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W6_arr m ρ c 5).trans ?_
  rw [Cert.Layer0Blocks.array0 (V5 m ρ) c, Cert.RefStages.layer1]
  have e0 : V5 m ρ c (Pipeline.arrRef spec0 0) = (m ((c : Thread nD τ).loc main_arg0)) := arg0_5 m ρ c
  have e1 : V5 m ρ c (Pipeline.arrRef spec0 1) = val_main_v50 (F := Ideal) (m ((c : Thread nD τ).loc main_arg0)) (m ((c : Thread nD τ).loc main_arg1)) (m ((c : Thread nD τ).loc main_arg2)) := t1_5 m ρ c
  have e2 : V5 m ρ c (Pipeline.arrRef spec0 2) = val_main_v70 (F := Ideal) (m ((c : Thread nD τ).loc main_arg0)) (m ((c : Thread nD τ).loc main_arg1)) (m ((c : Thread nD τ).loc main_arg2)) := t2_5 m ρ c
  have e3 : V5 m ρ c (Pipeline.arrRef spec0 3) = (m ((c : Thread nD τ).loc main_arg3)) := arg3_5 m ρ c
  have e4 : V5 m ρ c (Pipeline.arrRef spec0 4) = (m ((c : Thread nD τ).loc main_arg4)) := arg4_5 m ρ c
  rw [e0, e1, e2, e3, e4]

/-- The second layer's kernel leaves the reference's second layer. -/
theorem out1 : W8 m ρ c (Proc.devRef .tc main_v94) = val_main_v122 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W8_arr m ρ c 5).trans ?_
  rw [Cert.Layer1Blocks.array1 (V7 m ρ) c, Cert.RefStages.layer2]
  have e0 : V7 m ρ c (Pipeline.arrRef spec1 0) = val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := (out0_7 m ρ c).trans (out0 m ρ c)
  have e1 : V7 m ρ c (Pipeline.arrRef spec1 1) = val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := t1_7 m ρ c (out0 m ρ c)
  have e2 : V7 m ρ c (Pipeline.arrRef spec1 2) = val_main_v114 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := t2_7 m ρ c (out0 m ρ c)
  have e3 : V7 m ρ c (Pipeline.arrRef spec1 3) = (m ((c : Thread nD τ).loc main_arg5)) := arg5_7 m ρ c
  have e4 : V7 m ρ c (Pipeline.arrRef spec1 4) = (m ((c : Thread nD τ).loc main_arg6)) := arg6_7 m ρ c
  rw [e0, e1, e2, e3, e4]

/-- The third layer's kernel leaves the reference's third layer. -/
theorem out2 : W10 m ρ c (Proc.devRef .tc main_v124) = val_main_v165 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W10_arr m ρ c 5).trans ?_
  rw [Cert.Layer2Blocks.array2 (V9 m ρ) c, Cert.RefStages.layer3]
  have e0 : V9 m ρ c (Pipeline.arrRef spec2 0) = val_main_v122 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := (out1_9 m ρ c).trans (out1 m ρ c)
  have e1 : V9 m ρ c (Pipeline.arrRef spec2 1) = val_main_v138 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := t1_9 m ρ c (out1 m ρ c)
  have e2 : V9 m ρ c (Pipeline.arrRef spec2 2) = val_main_v158 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := t2_9 m ρ c (out1 m ρ c)
  have e3 : V9 m ρ c (Pipeline.arrRef spec2 3) = (m ((c : Thread nD τ).loc main_arg7)) := arg7_9 m ρ c
  have e4 : V9 m ρ c (Pipeline.arrRef spec2 4) = (m ((c : Thread nD τ).loc main_arg8)) := arg8_9 m ρ c
  rw [e0, e1, e2, e3, e4]

/-- A parameter array of the head is, at the head kernel's entry, as launched: the kernel only reads it, so the
    last boundary's contents — which the frame reads back to the launch — are the entry's. -/
theorem headArg (w : Fin cfg3.W) (hw : (cfg3.win w).isOut = false) :
    V10 m ρ c (Pipeline.arrRef spec3 w) = W11 m ρ c (Proc.devRef .tc (Pipeline.arrRef spec3 w)) :=
  ((W11_arr m ρ c w).trans (((dat3 (V10 m ρ) c).arrAt_in w hw _).trans (A_eq3 (V10 m ρ) c w))).symm

set_option maxHeartbeats 4000000 in
/-- The head's kernel leaves the reference's result. -/
theorem result : W11 m ρ c (Proc.devRef .tc main_v125) = val_main_v195 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (W11_arr m ρ c 9).trans ?_
  rw [Cert.HeadBlocks.head_array (V10 m ρ) c, Cert.RefStages.headStage]
  have e0 : V10 m ρ c (Pipeline.arrRef spec3 0) = val_main_v165 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := out2 m ρ c
  have e1 : V10 m ρ c (Pipeline.arrRef spec3 1) = (m ((c : Thread nD τ).loc main_arg9)) := (headArg m ρ c 1 rfl).trans (W11_main_arg9 m ρ c)
  have e2 : V10 m ρ c (Pipeline.arrRef spec3 2) = (m ((c : Thread nD τ).loc main_arg10)) := (headArg m ρ c 2 rfl).trans (W11_main_arg10 m ρ c)
  have e3 : V10 m ρ c (Pipeline.arrRef spec3 3) = (m ((c : Thread nD τ).loc main_arg11)) := (headArg m ρ c 3 rfl).trans (W11_main_arg11 m ρ c)
  have e4 : V10 m ρ c (Pipeline.arrRef spec3 4) = (m ((c : Thread nD τ).loc main_arg12)) := (headArg m ρ c 4 rfl).trans (W11_main_arg12 m ρ c)
  have e5 : V10 m ρ c (Pipeline.arrRef spec3 5) = (m ((c : Thread nD τ).loc main_arg13)) := (headArg m ρ c 5 rfl).trans (W11_main_arg13 m ρ c)
  have e6 : V10 m ρ c (Pipeline.arrRef spec3 6) = (m ((c : Thread nD τ).loc main_arg14)) := (headArg m ρ c 6 rfl).trans (W11_main_arg14 m ρ c)
  have e7 : V10 m ρ c (Pipeline.arrRef spec3 7) = (m ((c : Thread nD τ).loc main_arg15)) := (headArg m ρ c 7 rfl).trans (W11_main_arg15 m ρ c)
  have e8 : V10 m ρ c (Pipeline.arrRef spec3 8) = (m ((c : Thread nD τ).loc main_arg16)) := (headArg m ρ c 8 rfl).trans (W11_main_arg16 m ρ c)
  rw [e0, e1, e2, e3, e4, e5, e6, e7, e8]

end Cert.KernelValue

end
-- ==== Proof.lean ====
/-
  A three-layer Chebyshev graph network with a small dense head, as a tiled kernel program and as plain array code.

  Both programs normalise the graph and propagate node features along its edges with the same host operations.  They
  differ in the dense steps only: the kernel program computes each layer's combination
      ((T0 W0 + T1 W1) + T2 W2) + b   (rectified in the first two layers)
  and the head (linear map, normalisation by running statistics, rectification, a dot product with a weight column,
  the logistic function) in 25 blocks of 2000 nodes, where the reference computes them on whole arrays.  Read at the
  extended reals — a change of float format is the identity, a product accumulated into zero is the plain sum, the
  logistic function is 1 / (1 + exp (-x)) however it is spelt — every entry of every stage depends on one node's row
  only, and is the same expression in both programs, with the sums taken in the same order.  So the results are equal
  with no appeal to the inputs being finite.

  The modules: Spec (the dense stages as whole-array functions), BlockProduct and Layer0Blocks / Layer1Blocks /
  Layer2Blocks / HeadBlocks (each kernel's blocks make up the stage of the arrays it finds), RefStages (the
  reference's stages are the same functions), HostChain (the host operations between the kernels are the
  reference's), KernelRun (the kernel program's run with its result named) and KernelValue (the result is the
  reference's last stage).  Here: the three frames, the idealization (no operation was rewritten) and the equality.
-/
import proofs.«135729_j76433238000372_1_alg».proof.Defs
import proofs.«135729_j76433238000372_1_alg».proof.Proof.Gen.Kernel
import proofs.«135729_j76433238000372_1_alg».proof.Proof.Gen.Kernel.Skeleton
import proofs.«135729_j76433238000372_1_alg».proof.Proof.Gen.Kernel.Launch
import proofs.«135729_j76433238000372_1_alg».proof.Proof.Gen.Kernel.Points
import proofs.«135729_j76433238000372_1_alg».proof.Proof.Gen.Kernel.Frame
import proofs.«135729_j76433238000372_1_alg».proof.Proof.Gen.KernelIdeal
import proofs.«135729_j76433238000372_1_alg».proof.Proof.Gen.KernelIdeal.Skeleton
import proofs.«135729_j76433238000372_1_alg».proof.Proof.Gen.KernelIdeal.Launch
import proofs.«135729_j76433238000372_1_alg».proof.Proof.Gen.KernelIdeal.Points
import proofs.«135729_j76433238000372_1_alg».proof.Proof.Gen.KernelIdeal.Frame
import proofs.«135729_j76433238000372_1_alg».proof.Proof.Gen.ReferenceIdeal
import proofs.«135729_j76433238000372_1_alg».proof.Proof.Gen.ReferenceIdeal.Run
import proofs.«135729_j76433238000372_1_alg».proof.Proof.Gen.ReferenceIdeal.Read
import proofs.«135729_j76433238000372_1_alg».proof.Proof.Gen.Pre_finite_inputs
import proofs.«135729_j76433238000372_1_alg».proof.Proof.KernelRun
import proofs.«135729_j76433238000372_1_alg».proof.Proof.KernelValue
import Idealize.ShloMosaic.Adequacy
import Idealize.ShloMosaic.Init

noncomputable section

namespace Cert.Proof

open Idealize.ShloMosaic Idealize.ShloMosaic.TcCoe Idealize.SL.Sem

/-- The kernel program as printed runs, and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the idealized reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the seventeen arguments both idealized programs end with the same result: the
    reference's last stage of those arguments. -/
theorem algebraic : Cert.algebraic_KernelIdeal_ReferenceIdeal := by
  intro m ρ m' ρ' _ hagree
  refine ⟨fun c => Cert.ReferenceIdeal.Read.val_main_v195 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · exact (θ_run Cert.KernelIdeal.defs _ _).mono (fun r h c => ⟨(h c).1.trans (Cert.KernelValue.result m ρ c), (h c).2⟩)
      (Cert.KernelRun.run_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v195_eq]
    obtain ⟨h0, h1, h2, h3, h4, h5, h6, h7, h8, h9, h10, h11, h12, h13, h14, h15, h16⟩ := hagree c
    rw [h0, h1, h2, h3, h4, h5, h6, h7, h8, h9, h10, h11, h12, h13, h14, h15, h16]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
